-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v107) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x1600000 : Shape := ⟨2, ![2, 1600000]⟩
abbrev S256x64 : Shape := ⟨2, ![256, 64]⟩
abbrev S64 : Shape := ⟨1, ![64]⟩
abbrev S64x2 : Shape := ⟨2, ![64, 2]⟩
abbrev S2 : Shape := ⟨1, ![2]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S64x2 : S_.BroadcastsInDim S64x2 (![] : Fin 0 → Fin S64x2.rank)
  reducesTo_S64x2_S_d0_1 : S64x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg5 : FVec F S2 .f32) (main_v13 : IVec S_ 1) (main_v16 : IVec S64x2 1) : IVec S_ 1 :=
  let main_c_5 : IVec S_ 1 := constantI S_ 1 1#1
  let main_v17 : IVec S_ 1 := (fun x v => Host.reduce IntOp.andi x v reducesTo_S64x2_S_d0_1 h_S_) main_v16 main_c_5
  let main_v18 : IVec S_ 1 := andi main_v13 main_v17
  let main_v19 : FVec F S2 .f32 := Host.absf main_arg5
  let main_cst_6 : FVec F S_ .f32 := constant S_ .f32 0x7F800000#32
  let main_v20 : FVec F S2 .f32 := broadcastInDim S2 ![] bcast_S_S2 main_cst_6
  let main_v21 : IVec S2 1 := cmpf .olt main_v19 main_v20
  let main_c_7 : IVec S_ 1 := constantI S_ 1 1#1
  let main_v22 : IVec S_ 1 := (fun x v => Host.reduce IntOp.andi x v reducesTo_S2_S_d0 h_S_) main_v21 main_c_7
  let main_v23 : IVec S_ 1 := andi main_v18 main_v22
  main_v23

def fn {F : FTy → Type} [FloatOps F] (main_arg0 : FVec F S100000x256 .f32) (main_arg1 : IVec S2x1600000 32) (main_arg2 : FVec F S256x64 .f32) (main_arg3 : FVec F S64 .f32) (main_arg4 : FVec F S64x2 .f32) (main_arg5 : FVec F S2 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x64 .f32 := Host.absf main_arg2
  let main_cst_0 : FVec F S_ .f32 := constant S_ .f32 0x7F800000#32
  let main_v5 : FVec F S256x64 .f32 := broadcastInDim S256x64 ![] bcast_S_S256x64 main_cst_0
  let main_v6 : IVec S256x64 1 := cmpf .olt main_v4 main_v5
  let main_c_1 : IVec S_ 1 := constantI S_ 1 1#1
  let main_v7 : IVec S_ 1 := (fun x v => Host.reduce IntOp.andi x v reducesTo_S256x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x2 .f32 := Host.absf main_arg4
  let main_cst_4 : FVec F S_ .f32 := constant S_ .f32 0x7F800000#32
  let main_v15 : FVec F S64x2 .f32 := broadcastInDim S64x2 ![] bcast_S_S64x2 main_cst_4
  let main_v16 : IVec S64x2 1 := cmpf .olt main_v14 main_v15
  fn_part1 (F := F) main_arg5 main_v13 main_v16
-- ==== Kernel.lean ====
abbrev S100000x256 : Shape := ⟨2, ![100000, 256]⟩
abbrev S2x1600000 : Shape := ⟨2, ![2, 1600000]⟩
abbrev S256x64 : Shape := ⟨2, ![256, 64]⟩
abbrev S64 : Shape := ⟨1, ![64]⟩
abbrev S64x2 : Shape := ⟨2, ![64, 2]⟩
abbrev S2 : Shape := ⟨1, ![2]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x64 : Shape := ⟨2, ![100000, 64]⟩
abbrev S5000x256 : Shape := ⟨2, ![5000, 256]⟩
abbrev S5000x64 : Shape := ⟨2, ![5000, 64]⟩
abbrev S1600000x64 : Shape := ⟨2, ![1600000, 64]⟩
abbrev S1x64 : Shape := ⟨2, ![1, 64]⟩
abbrev S100000x1 : Shape := ⟨2, ![100000, 1]⟩
abbrev S5000x1 : Shape := ⟨2, ![5000, 1]⟩
abbrev S100000x2 : Shape := ⟨2, ![100000, 2]⟩
abbrev S5000x2 : Shape := ⟨2, ![5000, 2]⟩
abbrev S1600000x2 : Shape := ⟨2, ![1600000, 2]⟩
abbrev S1x2 : Shape := ⟨2, ![1, 2]⟩
abbrev S5000 : Shape := ⟨1, ![5000]⟩

abbrev nBuf : Space → Nat
  | .hbm => 80
  | .vmem => 28
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S256x64, .f32⟩
  | .hbm, ⟨3, _⟩ => ⟨S64, .f32⟩
  | .hbm, ⟨4, _⟩ => ⟨S64x2, .f32⟩
  | .hbm, ⟨5, _⟩ => ⟨S2, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S_, .f32⟩
  | .hbm, ⟨11, _⟩ => ⟨S1600000, .f32⟩
  | .hbm, ⟨12, _⟩ => ⟨S_, .f32⟩
  | .hbm, ⟨13, _⟩ => ⟨S100000, .f32⟩
  | .hbm, ⟨14, _⟩ => ⟨S1600000x1, .i32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S100000, .f32⟩
  | .hbm, ⟨20, _⟩ => ⟨S100000, .f32⟩
  | .hbm, ⟨21, _⟩ => ⟨S_, .i32⟩
  | .hbm, ⟨22, _⟩ => ⟨S1600000, .i32⟩
  | .hbm, ⟨23, _⟩ => ⟨S1600000, .i1⟩
  | .hbm, ⟨24, _⟩ => ⟨S_, .i32⟩
  | .hbm, ⟨25, _⟩ => ⟨S1600000, .i32⟩
  | .hbm, ⟨26, _⟩ => ⟨S1600000, .i32⟩
  | .hbm, ⟨27, _⟩ => ⟨S1600000, .i32⟩
  | .hbm, ⟨28, _⟩ => ⟨S1600000x1, .i32⟩
  | .hbm, ⟨29, _⟩ => ⟨S1600000, .f32⟩
  | .hbm, ⟨30, _⟩ => ⟨S_, .i32⟩
  | .hbm, ⟨31, _⟩ => ⟨S1600000, .i32⟩
  | .hbm, ⟨32, _⟩ => ⟨S1600000, .i1⟩
  | .hbm, ⟨33, _⟩ => ⟨S_, .i32⟩
  | .hbm, ⟨34, _⟩ => ⟨S1600000, .i32⟩
  | .hbm, ⟨35, _⟩ => ⟨S1600000, .i32⟩
  | .hbm, ⟨36, _⟩ => ⟨S1600000, .i32⟩
  | .hbm, ⟨37, _⟩ => ⟨S1600000x1, .i32⟩
  | .hbm, ⟨38, _⟩ => ⟨S1600000, .f32⟩
  | .hbm, ⟨39, _⟩ => ⟨S1600000, .f32⟩
  | .hbm, ⟨40, _⟩ => ⟨S100000x64, .f32⟩
  | .hbm, ⟨41, _⟩ => ⟨S_, .i32⟩
  | .hbm, ⟨42, _⟩ => ⟨S1600000, .i32⟩
  | .hbm, ⟨43, _⟩ => ⟨S1600000, .i1⟩
  | .hbm, ⟨44, _⟩ => ⟨S_, .i32⟩
  | .hbm, ⟨45, _⟩ => ⟨S1600000, .i32⟩
  | .hbm, ⟨46, _⟩ => ⟨S1600000, .i32⟩
  | .hbm, ⟨47, _⟩ => ⟨S1600000, .i32⟩
  | .hbm, ⟨48, _⟩ => ⟨S1600000x1, .i32⟩
  | .hbm, ⟨49, _⟩ => ⟨S1600000x64, .f32⟩
  | .hbm, ⟨50, _⟩ => ⟨S1600000x1, .f32⟩
  | .hbm, ⟨51, _⟩ => ⟨S1600000x64, .f32⟩
  | .hbm, ⟨52, _⟩ => ⟨S1600000x64, .f32⟩
  | .hbm, ⟨53, _⟩ => ⟨S_, .f32⟩
  | .hbm, ⟨54, _⟩ => ⟨S100000x64, .f32⟩
  | .hbm, ⟨55, _⟩ => ⟨S1600000x1, .i32⟩
  | .hbm, ⟨56, _⟩ => ⟨S100000x64, .f32⟩
  | .hbm, ⟨57, _⟩ => ⟨S1x64, .f32⟩
  | .hbm, ⟨58, _⟩ => ⟨S100000x1, .f32⟩
  | .hbm, ⟨59, _⟩ => ⟨S100000x64, .f32⟩
  | .hbm, ⟨60, _⟩ => ⟨S100000x2, .f32⟩
  | .hbm, ⟨61, _⟩ => ⟨S_, .i32⟩
  | .hbm, ⟨62, _⟩ => ⟨S1600000, .i32⟩
  | .hbm, ⟨63, _⟩ => ⟨S1600000, .i1⟩
  | .hbm, ⟨64, _⟩ => ⟨S_, .i32⟩
  | .hbm, ⟨65, _⟩ => ⟨S1600000, .i32⟩
  | .hbm, ⟨66, _⟩ => ⟨S1600000, .i32⟩
  | .hbm, ⟨67, _⟩ => ⟨S1600000, .i32⟩
  | .hbm, ⟨68, _⟩ => ⟨S1600000x1, .i32⟩
  | .hbm, ⟨69, _⟩ => ⟨S1600000x2, .f32⟩
  | .hbm, ⟨70, _⟩ => ⟨S1600000x1, .f32⟩
  | .hbm, ⟨71, _⟩ => ⟨S1600000x2, .f32⟩
  | .hbm, ⟨72, _⟩ => ⟨S1600000x2, .f32⟩
  | .hbm, ⟨73, _⟩ => ⟨S_, .f32⟩
  | .hbm, ⟨74, _⟩ => ⟨S100000x2, .f32⟩
  | .hbm, ⟨75, _⟩ => ⟨S1600000x1, .i32⟩
  | .hbm, ⟨76, _⟩ => ⟨S100000x2, .f32⟩
  | .hbm, ⟨77, _⟩ => ⟨S1x2, .f32⟩
  | .hbm, ⟨78, _⟩ => ⟨S100000x1, .f32⟩
  | .hbm, ⟨79, _⟩ => ⟨S100000x2, .f32⟩
  | .local _ .vmem, ⟨0, _⟩ => ⟨S5000x256, .f32⟩
  | .local _ .vmem, ⟨1, _⟩ => ⟨S5000x256, .f32⟩
  | .local _ .vmem, ⟨2, _⟩ => ⟨S256x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x1, .f32⟩
  | .local _ .vmem, ⟨10, _⟩ => ⟨S5000x1, .f32⟩
  | .local _ .vmem, ⟨11, _⟩ => ⟨S1x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S64x2, .f32⟩
  | .local _ .vmem, ⟨17, _⟩ => ⟨S5000x2, .f32⟩
  | .local _ .vmem, ⟨18, _⟩ => ⟨S5000x2, .f32⟩
  | .local _ .vmem, ⟨19, _⟩ => ⟨S5000x2, .f32⟩
  | .local _ .vmem, ⟨20, _⟩ => ⟨S5000x2, .f32⟩
  | .local _ .vmem, ⟨21, _⟩ => ⟨S5000x2, .f32⟩
  | .local _ .vmem, ⟨22, _⟩ => ⟨S5000x2, .f32⟩
  | .local _ .vmem, ⟨23, _⟩ => ⟨S5000x1, .f32⟩
  | .local _ .vmem, ⟨24, _⟩ => ⟨S5000x1, .f32⟩
  | .local _ .vmem, ⟨25, _⟩ => ⟨S1x2, .f32⟩
  | .local _ .vmem, ⟨26, _⟩ => ⟨S5000x2, .f32⟩
  | .local _ .vmem, ⟨27, _⟩ => ⟨S5000x2, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c : Ref sig .tc := ⟨.hbm, 21, rfl⟩
abbrev main_v12 : Ref sig .tc := ⟨.hbm, 22, rfl⟩
abbrev main_v13 : Ref sig .tc := ⟨.hbm, 23, rfl⟩
abbrev main_c_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_3 : Ref sig .tc := ⟨.hbm, 30, rfl⟩
abbrev main_v19 : Ref sig .tc := ⟨.hbm, 31, rfl⟩
abbrev main_v20 : Ref sig .tc := ⟨.hbm, 32, rfl⟩
abbrev main_c_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_c_5 : Ref sig .tc := ⟨.hbm, 41, rfl⟩
abbrev main_v28 : Ref sig .tc := ⟨.hbm, 42, rfl⟩
abbrev main_v29 : Ref sig .tc := ⟨.hbm, 43, rfl⟩
abbrev main_c_6 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_7 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_c_8 : Ref sig .tc := ⟨.hbm, 61, rfl⟩
abbrev main_v45 : Ref sig .tc := ⟨.hbm, 62, rfl⟩
abbrev main_v46 : Ref sig .tc := ⟨.hbm, 63, rfl⟩
abbrev main_c_9 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_10 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x2 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x2 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x2 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x2 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x2 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x2 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x64_S256x64_0_0 : ∀ a, (![0, 0] : Fin 2 → Nat) a + S256x64.size a ≤ S256x64.size a
  h_S256x64 : 0 < S256x64.numel
  inb_S5000x64_S5000x64_0_0 : ∀ a, (![0, 0] : Fin 2 → Nat) a + S5000x64.size a ≤ S5000x64.size a
  h_S5000x64 : 0 < S5000x64.numel
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  shapeCasts_S64_S1x64 : S64.ShapeCasts S1x64
  shapeCasts_S100000_S100000x1 : S100000.ShapeCasts S100000x1
  shapeCasts_S5000x64_S5000x64 : S5000x64.ShapeCasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x2_S64x2_0_0 : ∀ a, (![0, 0] : Fin 2 → Nat) a + S64x2.size a ≤ S64x2.size a
  h_S64x2 : 0 < S64x2.numel
  inb_S5000x2_S5000x2_0_0 : ∀ a, (![0, 0] : Fin 2 → Nat) a + S5000x2.size a ≤ S5000x2.size a
  h_S5000x2 : 0 < S5000x2.numel
  bcast_S1600000x1_S1600000x2_0_1 : S1600000x1.BroadcastsInDim S1600000x2 (![0, 1] : Fin 2 → Fin S1600000x2.rank)
  bcast_S_S100000x2 : S_.BroadcastsInDim S100000x2 (![] : Fin 0 → Fin S100000x2.rank)
  shapeCasts_S2_S1x2 : S2.ShapeCasts S1x2
  shapeCasts_S5000x2_S5000x2 : S5000x2.ShapeCasts S5000x2
  broadcasts_S5000x1_S5000x2 : S5000x1.Broadcasts S5000x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S5000x2 : S1x2.Broadcasts S5000x2
  reduces_S5000x2_S5000 : S5000x2.Reduces [1] S5000
  shapeCasts_S5000_S5000x1 : S5000.ShapeCasts S5000x1
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S5000x256_S256x64_S5000x64_1_0_0_1_n_n_wf : DotDims.WF S5000x256 S256x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x2_S5000x2_1_0_0_1_n_n_wf : DotDims.WF S5000x64 S64x2 S5000x2 [1] [0] [0] [1] [] []
  gather_S100000x2_S1600000x1_S1600000x2_1_0_n_n_0_1_12_wf : GatherDims.WF S100000x2 S1600000x1 S1600000x2 [1] [0] [] [0] [] 1 ![1, 2]
  scatter_S100000x2_S1600000x1_S1600000x2_1_0_0_1_wf : ScatterDims.WF S100000x2 S1600000x1 S1600000x2 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S256x64.size a
  hwx0_1 : ∀ i : grid0.Coords, EltTy.bits .f32 = 32 ∨ (Rect.block (s := S256x64) S256x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S100000x64.size a
  hwx1_4 : ∀ i : grid1.Coords, EltTy.bits .f32 = 32 ∨ (Rect.block (s := S100000x64) S5000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x2.size a ≤ S64x2.size a
  hwx2_1 : ∀ i : grid2.Coords, EltTy.bits .f32 = 32 ∨ (Rect.block (s := S64x2) S64x2.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x2.size a ≤ S100000x2.size a
  hwx2_2 : ∀ i : grid2.Coords, EltTy.bits .f32 = 32 ∨ (Rect.block (s := S100000x2) S5000x2.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x2.size a ≤ S100000x2.size a
  hwx3_0 : ∀ i : grid3.Coords, EltTy.bits .f32 = 32 ∨ (Rect.block (s := S100000x2) S5000x2.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x2.size a ≤ S100000x2.size a
  hwx3_1 : ∀ i : grid3.Coords, EltTy.bits .f32 = 32 ∨ (Rect.block (s := S100000x2) S5000x2.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S100000x1.size a
  hwx3_2 : ∀ i : grid3.Coords, EltTy.bits .f32 = 32 ∨ (Rect.block (s := S100000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x2.size a ≤ S1x2.size a
  hwx3_3 : ∀ i : grid3.Coords, EltTy.bits .f32 = 32 ∨ (Rect.block (s := S1x2) S1x2.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x2.size a ≤ S100000x2.size a
  hwx3_4 : ∀ i : grid3.Coords, EltTy.bits .f32 = 32 ∨ (Rect.block (s := S100000x2) S5000x2.size (cc3_transform_4 i) (hinb3_4 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S5000x256_S256x64_S5000x64_1_0_0_1_n_n : DotDims S5000x256 S256x64 S5000x64 where
  lhsContracting := [1]
  rhsContracting := [0]
  lhsNonContracting := [0]
  rhsNonContracting := [1]
  lhsBatch := []
  rhsBatch := []
  wf := dot_S5000x256_S256x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x2_S5000x2_1_0_0_1_n_n : DotDims S5000x64 S64x2 S5000x2 where
  lhsContracting := [1]
  rhsContracting := [0]
  lhsNonContracting := [0]
  rhsNonContracting := [1]
  lhsBatch := []
  rhsBatch := []
  wf := dot_S5000x64_S64x2_S5000x2_1_0_0_1_n_n_wf
def gather_S100000x2_S1600000x1_S1600000x2_1_0_n_n_0_1_12 : GatherDims S100000x2 S1600000x1 S1600000x2 where
  offsetDims := [1]
  collapsedSliceDims := [0]
  operandBatchingDims := []
  startIndicesBatchingDims := []
  startIndexMap := [0]
  indexVectorDim := 1
  sliceSizes := ![1, 2]
  wf := gather_S100000x2_S1600000x1_S1600000x2_1_0_n_n_0_1_12_wf
def scatter_S100000x2_S1600000x1_S1600000x2_1_0_0_1 : ScatterDims S100000x2 S1600000x1 S1600000x2 where
  updateWindowDims := [1]
  insertedWindowDims := [0]
  scatterDimsToOperandDims := [0]
  indexVectorDim := 1
  wf := scatter_S100000x2_S1600000x1_S1600000x2_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v40) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v42) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v41) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S5000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v43) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S64x2.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v44) S5000x2.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v57) S5000x2.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v44) S5000x2.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v59) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v58) S1x2.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v60) S5000x2.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S100000x256 : Shape := ⟨2, ![100000, 256]⟩
abbrev S2x1600000 : Shape := ⟨2, ![2, 1600000]⟩
abbrev S256x64 : Shape := ⟨2, ![256, 64]⟩
abbrev S64 : Shape := ⟨1, ![64]⟩
abbrev S64x2 : Shape := ⟨2, ![64, 2]⟩
abbrev S2 : Shape := ⟨1, ![2]⟩
abbrev S100000x64 : Shape := ⟨2, ![100000, 64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x64 : Shape := ⟨2, ![1600000, 64]⟩
abbrev S100000x1 : Shape := ⟨2, ![100000, 1]⟩
abbrev S1x64 : Shape := ⟨2, ![1, 64]⟩
abbrev S100000x2 : Shape := ⟨2, ![100000, 2]⟩
abbrev S1600000x2 : Shape := ⟨2, ![1600000, 2]⟩
abbrev S1x2 : Shape := ⟨2, ![1, 2]⟩

abbrev nBuf : Space → Nat
  | .hbm => 139
  | .vmem => 0
  | .smem => 0
  | _ => 0

abbrev hbmTy0_0 (i : Nat) : BufTy := match i % 128 with
  | 0 => ⟨S100000x256, .f32⟩
  | 1 => ⟨S2x1600000, .i32⟩
  | 2 => ⟨S256x64, .f32⟩
  | 3 => ⟨S64, .f32⟩
  | 4 => ⟨S64x2, .f32⟩
  | 5 => ⟨S2, .f32⟩
  | 6 => ⟨S100000x64, .f32⟩
  | 7 => ⟨S1x1600000, .i32⟩
  | 8 => ⟨S1600000, .i32⟩
  | 9 => ⟨S1x1600000, .i32⟩
  | 10 => ⟨S1600000, .i32⟩
  | 11 => ⟨S_, .f32⟩
  | 12 => ⟨S1600000, .f32⟩
  | 13 => ⟨S_, .f32⟩
  | 14 => ⟨S100000, .f32⟩
  | 15 => ⟨S1600000x1, .i32⟩
  | 16 => ⟨S100000, .f32⟩
  | 17 => ⟨S_, .f32⟩
  | 18 => ⟨S100000, .f32⟩
  | 19 => ⟨S100000, .f32⟩
  | 20 => ⟨S100000, .f32⟩
  | 21 => ⟨S_, .i32⟩
  | 22 => ⟨S1600000, .i32⟩
  | 23 => ⟨S1600000, .i1⟩
  | 24 => ⟨S_, .i32⟩
  | 25 => ⟨S1600000, .i32⟩
  | 26 => ⟨S1600000, .i32⟩
  | 27 => ⟨S1600000, .i32⟩
  | 28 => ⟨S1600000x1, .i32⟩
  | 29 => ⟨S1600000, .f32⟩
  | 30 => ⟨S_, .i32⟩
  | 31 => ⟨S1600000, .i32⟩
  | 32 => ⟨S1600000, .i1⟩
  | 33 => ⟨S_, .i32⟩
  | 34 => ⟨S1600000, .i32⟩
  | 35 => ⟨S1600000, .i32⟩
  | 36 => ⟨S1600000, .i32⟩
  | 37 => ⟨S1600000x1, .i32⟩
  | 38 => ⟨S1600000, .f32⟩
  | 39 => ⟨S1600000, .f32⟩
  | 40 => ⟨S_, .i32⟩
  | 41 => ⟨S1600000, .i32⟩
  | 42 => ⟨S1600000, .i1⟩
  | 43 => ⟨S_, .i32⟩
  | 44 => ⟨S1600000, .i32⟩
  | 45 => ⟨S1600000, .i32⟩
  | 46 => ⟨S1600000, .i32⟩
  | 47 => ⟨S1600000x1, .i32⟩
  | 48 => ⟨S1600000x64, .f32⟩
  | 49 => ⟨S1600000x1, .f32⟩
  | 50 => ⟨S1600000x64, .f32⟩
  | 51 => ⟨S1600000x64, .f32⟩
  | 52 => ⟨S_, .f32⟩
  | 53 => ⟨S100000x64, .f32⟩
  | 54 => ⟨S1600000x1, .i32⟩
  | 55 => ⟨S100000x64, .f32⟩
  | 56 => ⟨S100000, .f32⟩
  | 57 => ⟨S100000x1, .f32⟩
  | 58 => ⟨S100000x64, .f32⟩
  | 59 => ⟨S100000x64, .f32⟩
  | 60 => ⟨S100000x64, .f32⟩
  | 61 => ⟨S1x64, .f32⟩
  | 62 => ⟨S100000x64, .f32⟩
  | 63 => ⟨S100000x64, .f32⟩
  | 64 => ⟨S_, .f32⟩
  | 65 => ⟨S100000x64, .f32⟩
  | 66 => ⟨S100000x64, .f32⟩
  | 67 => ⟨S100000x2, .f32⟩
  | 68 => ⟨S1x1600000, .i32⟩
  | 69 => ⟨S1600000, .i32⟩
  | 70 => ⟨S1x1600000, .i32⟩
  | 71 => ⟨S1600000, .i32⟩
  | 72 => ⟨S_, .f32⟩
  | 73 => ⟨S1600000, .f32⟩
  | 74 => ⟨S_, .f32⟩
  | 75 => ⟨S100000, .f32⟩
  | 76 => ⟨S1600000x1, .i32⟩
  | 77 => ⟨S100000, .f32⟩
  | 78 => ⟨S_, .f32⟩
  | 79 => ⟨S100000, .f32⟩
  | 80 => ⟨S100000, .f32⟩
  | 81 => ⟨S100000, .f32⟩
  | 82 => ⟨S_, .i32⟩
  | 83 => ⟨S1600000, .i32⟩
  | 84 => ⟨S1600000, .i1⟩
  | 85 => ⟨S_, .i32⟩
  | 86 => ⟨S1600000, .i32⟩
  | 87 => ⟨S1600000, .i32⟩
  | 88 => ⟨S1600000, .i32⟩
  | 89 => ⟨S1600000x1, .i32⟩
  | 90 => ⟨S1600000, .f32⟩
  | 91 => ⟨S_, .i32⟩
  | 92 => ⟨S1600000, .i32⟩
  | 93 => ⟨S1600000, .i1⟩
  | 94 => ⟨S_, .i32⟩
  | 95 => ⟨S1600000, .i32⟩
  | 96 => ⟨S1600000, .i32⟩
  | 97 => ⟨S1600000, .i32⟩
  | 98 => ⟨S1600000x1, .i32⟩
  | 99 => ⟨S1600000, .f32⟩
  | 100 => ⟨S1600000, .f32⟩
  | 101 => ⟨S_, .i32⟩
  | 102 => ⟨S1600000, .i32⟩
  | 103 => ⟨S1600000, .i1⟩
  | 104 => ⟨S_, .i32⟩
  | 105 => ⟨S1600000, .i32⟩
  | 106 => ⟨S1600000, .i32⟩
  | 107 => ⟨S1600000, .i32⟩
  | 108 => ⟨S1600000x1, .i32⟩
  | 109 => ⟨S1600000x2, .f32⟩
  | 110 => ⟨S1600000x1, .f32⟩
  | 111 => ⟨S1600000x2, .f32⟩
  | 112 => ⟨S1600000x2, .f32⟩
  | 113 => ⟨S_, .f32⟩
  | 114 => ⟨S100000x2, .f32⟩
  | 115 => ⟨S1600000x1, .i32⟩
  | 116 => ⟨S100000x2, .f32⟩
  | 117 => ⟨S100000, .f32⟩
  | 118 => ⟨S100000x1, .f32⟩
  | 119 => ⟨S100000x2, .f32⟩
  | 120 => ⟨S100000x2, .f32⟩
  | 121 => ⟨S100000x2, .f32⟩
  | 122 => ⟨S1x2, .f32⟩
  | 123 => ⟨S100000x2, .f32⟩
  | 124 => ⟨S100000x2, .f32⟩
  | 125 => ⟨S_, .f32⟩
  | 126 => ⟨S100000, .f32⟩
  | 127 => ⟨S_, .f32⟩
  | _ => ⟨S100000x256, .f32⟩

abbrev hbmTy0_1 (i : Nat) : BufTy := match i % 128 with
  | 0 => ⟨S100000, .f32⟩
  | 1 => ⟨S100000, .f32⟩
  | 2 => ⟨S100000x1, .f32⟩
  | 3 => ⟨S100000x2, .f32⟩
  | 4 => ⟨S100000x2, .f32⟩
  | 5 => ⟨S100000x2, .f32⟩
  | 6 => ⟨S_, .f32⟩
  | 7 => ⟨S100000, .f32⟩
  | 8 => ⟨S100000x1, .f32⟩
  | 9 => ⟨S100000x2, .f32⟩
  | 10 => ⟨S100000x2, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c : Ref sig .tc := ⟨.hbm, 21, rfl⟩
abbrev main_v12 : Ref sig .tc := ⟨.hbm, 22, rfl⟩
abbrev main_v13 : Ref sig .tc := ⟨.hbm, 23, rfl⟩
abbrev main_c_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_3 : Ref sig .tc := ⟨.hbm, 30, rfl⟩
abbrev main_v19 : Ref sig .tc := ⟨.hbm, 31, rfl⟩
abbrev main_v20 : Ref sig .tc := ⟨.hbm, 32, rfl⟩
abbrev main_c_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_5 : Ref sig .tc := ⟨.hbm, 40, rfl⟩
abbrev main_v27 : Ref sig .tc := ⟨.hbm, 41, rfl⟩
abbrev main_v28 : Ref sig .tc := ⟨.hbm, 42, rfl⟩
abbrev main_c_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_7 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_call0_cst : Ref sig .tc := ⟨.hbm, 64, rfl⟩
abbrev main_call0_v0 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_cst_8 : Ref sig .tc := ⟨.hbm, 72, rfl⟩
abbrev main_v54 : Ref sig .tc := ⟨.hbm, 73, rfl⟩
abbrev main_cst_9 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_cst_10 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_c_11 : Ref sig .tc := ⟨.hbm, 82, rfl⟩
abbrev main_v61 : Ref sig .tc := ⟨.hbm, 83, rfl⟩
abbrev main_v62 : Ref sig .tc := ⟨.hbm, 84, rfl⟩
abbrev main_c_12 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_c_13 : Ref sig .tc := ⟨.hbm, 91, rfl⟩
abbrev main_v68 : Ref sig .tc := ⟨.hbm, 92, rfl⟩
abbrev main_v69 : Ref sig .tc := ⟨.hbm, 93, rfl⟩
abbrev main_c_14 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_c_15 : Ref sig .tc := ⟨.hbm, 101, rfl⟩
abbrev main_v76 : Ref sig .tc := ⟨.hbm, 102, rfl⟩
abbrev main_v77 : Ref sig .tc := ⟨.hbm, 103, rfl⟩
abbrev main_c_16 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_cst_17 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_cst_18 : Ref sig .tc := ⟨.hbm, 125, rfl⟩
abbrev main_v97 : Ref sig .tc := ⟨.hbm, 126, rfl⟩
abbrev main_cst_19 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_cst_20 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1600000x1_S1600000x2_0_1 : S1600000x1.BroadcastsInDim S1600000x2 (![0, 1] : Fin 2 → Fin S1600000x2.rank)
  bcast_S_S100000x2 : S_.BroadcastsInDim S100000x2 (![] : Fin 0 → Fin S100000x2.rank)
  bcast_S100000x1_S100000x2_0_1 : S100000x1.BroadcastsInDim S100000x2 (![0, 1] : Fin 2 → Fin S100000x2.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  reducesTo_S100000x2_S100000_d1 : S100000x2.ReducesTo [1] S100000
  h_S_ : 0 < S_.numel
  dot_S100000x256_S256x64_S100000x64_1_0_0_1_n_n_wf : DotDims.WF S100000x256 S256x64 S100000x64 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x2_S100000x2_1_0_0_1_n_n_wf : DotDims.WF S100000x64 S64x2 S100000x2 [1] [0] [0] [1] [] []
  gather_S100000x2_S1600000x1_S1600000x2_1_0_n_n_0_1_12_wf : GatherDims.WF S100000x2 S1600000x1 S1600000x2 [1] [0] [] [0] [] 1 ![1, 2]
  scatter_S100000x2_S1600000x1_S1600000x2_1_0_0_1_wf : ScatterDims.WF S100000x2 S1600000x1 S1600000x2 [1] [0] [0] 1

variable [Facts₀]

def dot_S100000x256_S256x64_S100000x64_1_0_0_1_n_n : DotDims S100000x256 S256x64 S100000x64 where
  lhsContracting := [1]
  rhsContracting := [0]
  lhsNonContracting := [0]
  rhsNonContracting := [1]
  lhsBatch := []
  rhsBatch := []
  wf := dot_S100000x256_S256x64_S100000x64_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x2_S100000x2_1_0_0_1_n_n : DotDims S100000x64 S64x2 S100000x2 where
  lhsContracting := [1]
  rhsContracting := [0]
  lhsNonContracting := [0]
  rhsNonContracting := [1]
  lhsBatch := []
  rhsBatch := []
  wf := dot_S100000x64_S64x2_S100000x2_1_0_0_1_n_n_wf
def gather_S100000x2_S1600000x1_S1600000x2_1_0_n_n_0_1_12 : GatherDims S100000x2 S1600000x1 S1600000x2 where
  offsetDims := [1]
  collapsedSliceDims := [0]
  operandBatchingDims := []
  startIndicesBatchingDims := []
  startIndexMap := [0]
  indexVectorDim := 1
  sliceSizes := ![1, 2]
  wf := gather_S100000x2_S1600000x1_S1600000x2_1_0_n_n_0_1_12_wf
def scatter_S100000x2_S1600000x1_S1600000x2_1_0_0_1 : ScatterDims S100000x2 S1600000x1 S1600000x2 where
  updateWindowDims := [1]
  insertedWindowDims := [0]
  scatterDimsToOperandDims := [0]
  indexVectorDim := 1
  wf := scatter_S100000x2_S1600000x1_S1600000x2_1_0_0_1_wf

class Facts : Prop extends Facts₀ where

variable [Facts]
-- ==== Proof.KernelRun.lean ====
/-
  The idealized kernel's run with its result array named.

  @main of the kernel is four grid launches among stretches of host operations. The buffer contents after each
  segment are a fold from the launch memory (the generated frame module names the folds `W0 … W7`): a stretch of host
  operations applies its operations in order, a launch replaces each of its arrays by what its write-backs leave.
  Every weakly fair execution ends with every unscoped buffer at the last fold `W7`; read at the result buffer and at
  the six argument buffers this is the run used by the value claim: the result array is `W7` at the result buffer,
  the arguments end as launched.
-/
import proofs.«142394_j83640193122934_2_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel's @main terminates without a fault; the result buffer ends at the last
    fold `W7` read there, and every argument buffer ends as launched. -/
theorem run_named : θ_run defs (onTc (τ := τ) (main (F := F))) ⟨m, fun _ => 0, ρ⟩ (fun r => ∀ c : Dev nD,
      r.2.mem ((c.tc : Thread nD τ).loc main_v60) = W7 m ρ c (Proc.devRef .tc main_v60)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v60 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c)⟩)

end Cert.KernelIdeal.Whole

end
-- ==== Proof.LibPlainDot.lean ====
/-
  A plain matrix product read at an index, on the extended reals.

  For the dimension numbers `<[1], [0], [0], [1]>` with no batch axis (`DotDims.plain M K N`, or any record equal to
  it: an `M×K` left operand, a `K×N` right operand, the left's second axis contracted with the right's first) the
  entry `(a, b)` of the product is `∑ k, l[a,k] · r[k,b]`. Two operations compute it at the exact instance: a
  `tpu.matmul` into a zero accumulator and the host's `dot_general`. Both are stated here as equalities of whole
  arrays with one function, `rowsByCols l r`, so that a product computed block of rows by block of rows and the same
  product computed at once are compared through one name.
-/
import Idealize.ShloMosaic.Lib.ValueIdx
import Idealize.ShloMosaic.PureOps.Ideal.Laws

noncomputable section

namespace Cert.Lib.PlainDot

open Idealize.ShloMosaic Idealize.ShloMosaic.ValueIdx

/-- The product of an `M×K` array by a `K×N` array, index by index: entry `(a, b)` is `∑ k, l[a,k] · r[k,b]`. -/
def rowsByCols {M K N : ℕ} (l : (⟨2, ![M, K]⟩ : Shape).Idx → EReal) (r : (⟨2, ![K, N]⟩ : Shape).Idx → EReal) :
    (⟨2, ![M, N]⟩ : Shape).Idx → EReal :=
  fun j => ∑ k : Fin K, l (ix2 (j 0) k) * r (ix2 k (j 1))

theorem rowsByCols_apply {M K N : ℕ} (l : (⟨2, ![M, K]⟩ : Shape).Idx → EReal) (r : (⟨2, ![K, N]⟩ : Shape).Idx → EReal)
    (j : (⟨2, ![M, N]⟩ : Shape).Idx) : rowsByCols l r j = ∑ k : Fin K, l (ix2 (j 0) k) * r (ix2 k (j 1)) := rfl

/-- The left operand's index at result index `j` and contraction position `q`: row `j 0` … -/
theorem lhsIdx_row {M K N : ℕ} (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl
/-- … and column the contraction position's one coordinate. -/
theorem lhsIdx_col {M K N : ℕ} (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q
/-- The right operand's index: row the contraction position's one coordinate … -/
theorem rhsIdx_row {M K N : ℕ} (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q
/-- … and column `j 1`. -/
theorem rhsIdx_col {M K N : ℕ} (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the record's one-axis contraction shape, with the operands read at the record's operand indices, is
    the sum over `k < K` of `l[a,k] · r[k,b]`: the contraction index is its one coordinate, the left index at `(j, k)`
    is `(j 0, k)` and the right index is `(k, j 1)`. -/
theorem contr_sum {M K N : ℕ} (d : DotDims ⟨2, ![M, K]⟩ ⟨2, ![K, N]⟩ ⟨2, ![M, N]⟩) (hd : d = DotDims.plain M K N)
    (l : (⟨2, ![M, K]⟩ : Shape).Idx → EReal) (r : (⟨2, ![K, N]⟩ : Shape).Idx → EReal) (j : (⟨2, ![M, N]⟩ : Shape).Idx) :
    ∑ q : d.contr.Idx, l (d.lhsIdx j q) * r (d.rhsIdx j q) = rowsByCols l r j := by
  subst hd
  unfold rowsByCols
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhsIdx_row j _
      | ⟨1, _⟩ => exact (lhsIdx_col j _).trans hk)
  have er : (DotDims.plain M K N).rhsIdx j ((contrEquiv1 (DotDims.plain M K N) K rfl rfl).symm k) = ix2 k (j 1) :=
    funext fun a => Fin.ext (by
      match a with
      | ⟨0, _⟩ => exact (rhsIdx_row j _).trans hk
      | ⟨1, _⟩ => exact rhsIdx_col j _)
  exact congrArg₂ (· * ·) (congrArg l el) (congrArg r er)

/-- A `tpu.matmul` with plain dimension numbers into the zero accumulator is the product, whatever the operands'
    float formats and the precision attribute. -/
theorem matmul_zero_eq {M K N : ℕ} {φ₁ φ₂ : FTy} (d : DotDims ⟨2, ![M, K]⟩ ⟨2, ![K, N]⟩ ⟨2, ![M, N]⟩)
    (hd : d = DotDims.plain M K N) (prec : Option ContractPrecision)
    (l : FVec Ideal ⟨2, ![M, K]⟩ φ₁) (r : FVec Ideal ⟨2, ![K, N]⟩ φ₂) :
    FloatOps.matmul d prec l r (constant (F := Ideal) ⟨2, ![M, N]⟩ .f32 0x00000000#32) = rowsByCols l r :=
  funext fun j => (Ideal.matmul_constant_zero_apply d prec l r j).trans (contr_sum d hd l r j)

/-- The host's `dot_general` with plain dimension numbers is the product, whatever the precision and the schedule. -/
theorem dotGeneral_eq {M K N : ℕ} {φ₁ φ₂ : FTy} (d : DotDims ⟨2, ![M, K]⟩ ⟨2, ![K, N]⟩ ⟨2, ![M, N]⟩)
    (hd : d = DotDims.plain M K N) (prec : Option ContractPrecision) (sched : HostSchedule)
    (l : FVec Ideal ⟨2, ![M, K]⟩ φ₁) (r : FVec Ideal ⟨2, ![K, N]⟩ φ₂) :
    FloatOps.dotGeneral d prec sched l r = rowsByCols l r :=
  funext fun j => (Ideal.dotGeneral_apply d prec sched l r j).trans (contr_sum d hd l r j)

/-- Two products agree at two indices when their operands agree along the row and the column read there: if
    `l'[j' 0, k] = l[j 0, k]` and `r'[k, j' 1] = r[k, j 1]` for every `k`, then `(l' · r')[j'] = (l · r)[j]`. In
    particular rows of a product are the product of the rows: with `l'` a block of rows of `l` and `r' = r`, the
    block's product at `(p, b)` is the whole product at `(o + p, b)`. -/
theorem rowsByCols_congr {M M' K N N' : ℕ} (l : (⟨2, ![M, K]⟩ : Shape).Idx → EReal) (r : (⟨2, ![K, N]⟩ : Shape).Idx → EReal)
    (l' : (⟨2, ![M', K]⟩ : Shape).Idx → EReal) (r' : (⟨2, ![K, N']⟩ : Shape).Idx → EReal)
    (j' : (⟨2, ![M', N']⟩ : Shape).Idx) (j : (⟨2, ![M, N]⟩ : Shape).Idx)
    (hl : ∀ k : Fin K, l' (ix2 (j' 0) k) = l (ix2 (j 0) k)) (hr : ∀ k : Fin K, r' (ix2 k (j' 1)) = r (ix2 k (j 1))) :
    rowsByCols l' r' j' = rowsByCols l r j := by
  unfold rowsByCols
  exact Finset.sum_congr rfl fun k _ => by rw [hl k, hr k]

end Cert.Lib.PlainDot

end
-- ==== Proof.Region0.lean ====
/-
  The first launch: the projection `x · W1`, computed one block of 5000 rows at a time.

  Grid point `t` of 20 loads rows `5000 t … 5000 t + 4999` of the left operand and the whole right operand, multiplies
  them into a zero accumulator and writes the 5000 × 64 product back as rows `5000 t …` of the result. An entry of a
  product depends only on its row of the left operand and its column of the right one, so the block's product at
  `(p, b)` is the whole product at `(5000 t + p, b)`; the 20 blocks tile the 100000 rows, so the result array ends as
  the whole product of the two arrays the launch found.
-/
import proofs.«142394_j83640193122934_2_alg».proof.Proof.Gen.KernelIdeal.Frame
import proofs.«142394_j83640193122934_2_alg».proof.Proof.LibPlainDot
import Idealize.ShloMosaic.Lib.Pipeline.Value

set_option maxRecDepth 16384

noncomputable section

namespace Cert.KernelIdeal.Whole

open Cert.KernelIdeal Cert.KernelIdeal.Gen
open Idealize.ShloMosaic Idealize.ShloMosaic.TcCoe Idealize.ShloMosaic.ValueIdx
open Idealize.ShloMosaic.Pipeline (Dat Cfg Window)
open Cert.Lib.PlainDot

variable (V : (c : Dev nD) → (b : Ref sig .tc) → Buf (Elt Ideal) ((c : Thread nD τ).loc b))

theorem origin2 : (![0, 0] : Fin 2 → Nat) = fun _ => 0 := funext fun a => by fin_cases a <;> rfl

/-- What the body stores is the product of the two blocks it loaded (a change of float format is the identity on
    the extended reals, and the accumulator starts at zero). -/
theorem proj1_block (x0 : Vec Ideal S5000x256 .f32) (x1 : Vec Ideal S256x64 .f32) :
    out0_2 x0 x1 = rowsByCols x0 x1 := by
  unfold out0_2
  rw [View.canon_unit_zero origin2]
  simp only [View.ld_unit_zero (S := S5000x256) origin2, View.ld_unit_zero (S := S256x64) origin2]
  unfold k0_pay1
  exact matmul_zero_eq dot_S5000x256_S256x64_S5000x64_1_0_0_1_n_n rfl none _ _

/-- The printed index maps over the grid: the left operand's and the result's blocks are block `t` of the rows and
    the only block of the columns; the right operand's block is the whole array. -/
theorem proj1_index : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What grid point `t` writes back is block `t` of the whole product. -/
theorem proj1_flushed (c : Dev nD) (t : Fin cfg0.N) :
    (dat0 V c).flushed 2 t
      = ((cfg0.win 2).blk t).view.read (Elt Ideal) (rowsByCols (V c main_arg0) (V c main_arg2)) := by
  show (cfg0.win 2).cut (grid0.coords t) ((dat0 V c).after 2 t) = _
  rw [after0_2, proj1_block]
  obtain ⟨e0, e1, e2, e3, e4, e5⟩ := proj1_index t
  funext y
  show rowsByCols (iblk0 V c 0 t) (iblk0 V c 1 t) y
    = rowsByCols (V c main_arg0) (V c main_arg2) (((cfg0.win 2).blk t).view.emb y)
  rw [rowsByCols_apply, rowsByCols_apply]
  refine Finset.sum_congr rfl fun k _ => ?_
  refine congrArg₂ (· * ·) ?_ ?_
  · show V c main_arg0 (((cfg0.win 0).blk t).view.emb (ix2 (y 0) k))
      = V c main_arg0 (ix2 ((((cfg0.win 2).blk t).view.emb y) 0) k)
    refine congrArg (V c main_arg0) (funext fun a => Fin.ext ?_)
    match a with
    | ⟨0, _⟩ => show win0_0.index t (0 : Fin 2) * 5000 + 1 * (y 0).val = win0_2.index t (0 : Fin 2) * 5000 + 1 * (y 0).val; rw [e0, e4]
    | ⟨1, _⟩ => show win0_0.index t (1 : Fin 2) * 256 + 1 * k.val = k.val; rw [e1]; omega
  · show V c main_arg2 (((cfg0.win 1).blk t).view.emb (ix2 k (y 1)))
      = V c main_arg2 (ix2 k ((((cfg0.win 2).blk t).view.emb y) 1))
    refine congrArg (V c main_arg2) (funext fun a => Fin.ext ?_)
    match a with
    | ⟨0, _⟩ => show win0_1.index t (0 : Fin 2) * 256 + 1 * k.val = k.val; rw [e2]; omega
    | ⟨1, _⟩ => show win0_1.index t (1 : Fin 2) * 64 + 1 * (y 1).val = win0_2.index t (1 : Fin 2) * 64 + 1 * (y 1).val; rw [e3, e5]

/-- An index of the result array is in point `t`'s block iff each coordinate is in the block's range on its axis. -/
theorem proj1_mem (t : Fin cfg0.N) (i : S100000x64.Idx) :
    i ∈ ((cfg0.win 2).blk t).view.set ↔ ∀ a : Fin 2, win0_2.index t a * S5000x64.size a ≤ (i a).val
      ∧ (i a).val < win0_2.index t a * S5000x64.size a + S5000x64.size a := by
  show i ∈ ((View.whole main_v27).slice (win0_2.rect t)).set ↔ _
  rw [View.set_slice_whole, Rect.mem_set_unit]
  exact Iff.rfl

/-- Every row lies in the block of the point `row / 5000`. -/
theorem proj1_cover (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 20 := N_0
  let t : Fin cfg0.N := ⟨(i 0).val / 5000, by rw [hN]; omega⟩
  have ht : t.val = (i 0).val / 5000 := rfl
  obtain ⟨e0, e1, e2, e3, e4, e5⟩ := proj1_index t
  refine ⟨t, flush0_2 t, ?_⟩
  rw [proj1_mem]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 64 ≤ (i 1).val ∧ (i 1).val < win0_2.index t (1 : Fin 2) * 64 + 64; omega

/-- After the first launch its result array is the whole product of the arrays it found. -/
theorem proj1_array (c : Dev nD) :
    (dat0 V c).arrAt 2 cfg0.N = rowsByCols (V c main_arg0) (V c main_arg2) :=
  (dat0 V c).arrAt_eq_of_cover 2 _ (fun t _ => proj1_flushed V c t) proj1_cover

end Cert.KernelIdeal.Whole

end
-- ==== Proof.Spec.lean ====
/-
  The two graph-convolution epilogues, index by index, on the extended reals.

  A layer of the network ends with the self-loop combine `z[p,q] = agg[p,q] + xw[p,q] · d²[p] + b[q]`, where the squared
  inverse root degree `d²` arrives as a column `[n,1]` and the bias `b` as a row `[1,c]`. The first layer then clamps
  at zero, `max z 0`. The second layer normalises each row of two entries:
  `exp (z[p,q] - top[p]) / ∑ₖ exp (z[p,k] - top[p])` with `top[p]` the maximum of the row taken from `-∞`.
  Both depend, at an index `(p, q)`, on row `p` of the operands only: that is what lets a launch compute them one block
  of rows at a time.
-/
import Idealize.ShloMosaic.Lib.ValueIdx
import Idealize.ShloMosaic.PureOps.Ideal.Laws

noncomputable section

namespace Cert.Gcn.Spec

open Idealize.ShloMosaic Idealize.ShloMosaic.ValueIdx

/-- `agg + xw · d² + b` with `d²` a column and `b` a row. -/
def selfLoop {n c : ℕ} (agg xw : FVec Ideal ⟨2, ![n, c]⟩ .f32) (dcol : FVec Ideal ⟨2, ![n, 1]⟩ .f32)
    (brow : FVec Ideal ⟨2, ![1, c]⟩ .f32) : FVec Ideal ⟨2, ![n, c]⟩ .f32 :=
  fun j => (agg j + xw j * dcol (ix2 (j 0) (0 : Fin 1))) + brow (ix2 (0 : Fin 1) (j 1))

theorem selfLoop_apply {n c : ℕ} (agg xw : FVec Ideal ⟨2, ![n, c]⟩ .f32) (dcol : FVec Ideal ⟨2, ![n, 1]⟩ .f32)
    (brow : FVec Ideal ⟨2, ![1, c]⟩ .f32) (p : Fin n) (q : Fin c) :
    selfLoop agg xw dcol brow (ix2 p q)
      = (agg (ix2 p q) + xw (ix2 p q) * dcol (ix2 p (0 : Fin 1))) + brow (ix2 (0 : Fin 1) q) := rfl

/-- The clamp at zero. -/
def clampZero {n c : ℕ} (z : FVec Ideal ⟨2, ![n, c]⟩ .f32) : FVec Ideal ⟨2, ![n, c]⟩ .f32 :=
  fun j => max (z j) (Ideal.ofBits .f32 0x00000000#32)

/-- The maximum of a row of two entries, taken from `-∞`. -/
def rowTop {n : ℕ} (z : FVec Ideal ⟨2, ![n, 2]⟩ .f32) (p : Fin n) : Ideal .f32 :=
  (Finset.univ : Finset (Fin 2)).fold max (Ideal.ofBits .f32 0xFF800000#32) (fun k => z (ix2 p k))

/-- The row-wise normalised exponentials. -/
def softRows {n : ℕ} (z : FVec Ideal ⟨2, ![n, 2]⟩ .f32) : FVec Ideal ⟨2, ![n, 2]⟩ .f32 :=
  fun j => Ideal.div (Ideal.exp (z j - rowTop z (j 0))) (∑ k : Fin 2, Ideal.exp (z (ix2 (j 0) k) - rowTop z (j 0)))

theorem softRows_apply {n : ℕ} (z : FVec Ideal ⟨2, ![n, 2]⟩ .f32) (p : Fin n) (q : Fin 2) :
    softRows z (ix2 p q)
      = Ideal.div (Ideal.exp (z (ix2 p q) - rowTop z p)) (∑ k : Fin 2, Ideal.exp (z (ix2 p k) - rowTop z p)) := rfl

/-- A row's maximum depends on that row only. -/
theorem rowTop_rows {n n' : ℕ} (z : FVec Ideal ⟨2, ![n, 2]⟩ .f32) (z' : FVec Ideal ⟨2, ![n', 2]⟩ .f32) (p : Fin n) (p' : Fin n')
    (h : ∀ k : Fin 2, z' (ix2 p' k) = z (ix2 p k)) : rowTop z' p' = rowTop z p := by
  unfold rowTop
  rw [show (fun k => z' (ix2 p' k)) = fun k => z (ix2 p k) from funext h]

/-- The normalised exponentials of a row depend on that row only: a block of rows normalised by itself is the
    block of the whole array normalised. -/
theorem softRows_rows {n n' : ℕ} (z : FVec Ideal ⟨2, ![n, 2]⟩ .f32) (z' : FVec Ideal ⟨2, ![n', 2]⟩ .f32) (p : Fin n) (p' : Fin n')
    (q : Fin 2) (h : ∀ k : Fin 2, z' (ix2 p' k) = z (ix2 p k)) : softRows z' (ix2 p' q) = softRows z (ix2 p q) := by
  rw [softRows_apply, softRows_apply, rowTop_rows z z' p p' h, h q]
  refine congrArg _ (Finset.sum_congr rfl fun k _ => ?_)
  rw [h k]

/-- The clamped combine at `(p, q)` reads row `p` of the operands, the column's entry of that row and the bias at `q`:
    computed on a block of rows it is the whole array's value at the block's row. -/
theorem clampLoop_rows {n n' c : ℕ} (A XW : FVec Ideal ⟨2, ![n, c]⟩ .f32) (D : FVec Ideal ⟨2, ![n, 1]⟩ .f32)
    (B : FVec Ideal ⟨2, ![1, c]⟩ .f32) (a xw : FVec Ideal ⟨2, ![n', c]⟩ .f32) (d : FVec Ideal ⟨2, ![n', 1]⟩ .f32)
    (b : FVec Ideal ⟨2, ![1, c]⟩ .f32) (P : Fin n) (p : Fin n') (q : Fin c)
    (h0 : a (ix2 p q) = A (ix2 P q)) (h1 : xw (ix2 p q) = XW (ix2 P q))
    (h2 : d (ix2 p (0 : Fin 1)) = D (ix2 P (0 : Fin 1))) (h3 : b (ix2 (0 : Fin 1) q) = B (ix2 (0 : Fin 1) q)) :
    clampZero (selfLoop a xw d b) (ix2 p q) = clampZero (selfLoop A XW D B) (ix2 P q) := by
  unfold clampZero
  rw [selfLoop_apply, selfLoop_apply, h0, h1, h2, h3]

/-- The same for the normalised combine, whose value at `(p, q)` reads the whole row `p`. -/
theorem softLoop_rows {n n' : ℕ} (A XW : FVec Ideal ⟨2, ![n, 2]⟩ .f32) (D : FVec Ideal ⟨2, ![n, 1]⟩ .f32)
    (B : FVec Ideal ⟨2, ![1, 2]⟩ .f32) (a xw : FVec Ideal ⟨2, ![n', 2]⟩ .f32) (d : FVec Ideal ⟨2, ![n', 1]⟩ .f32)
    (b : FVec Ideal ⟨2, ![1, 2]⟩ .f32) (P : Fin n) (p : Fin n') (q : Fin 2)
    (h0 : ∀ k : Fin 2, a (ix2 p k) = A (ix2 P k)) (h1 : ∀ k : Fin 2, xw (ix2 p k) = XW (ix2 P k))
    (h2 : d (ix2 p (0 : Fin 1)) = D (ix2 P (0 : Fin 1))) (h3 : ∀ k : Fin 2, b (ix2 (0 : Fin 1) k) = B (ix2 (0 : Fin 1) k)) :
    softRows (selfLoop a xw d b) (ix2 p q) = softRows (selfLoop A XW D B) (ix2 P q) :=
  softRows_rows _ _ P p q fun k => by rw [selfLoop_apply, selfLoop_apply, h0 k, h1 k, h2, h3 k]

/-- From `-∞` the maximum with anything is that thing. -/
theorem max_negInf (y : Ideal .f32) : max (Ideal.ofBits .f32 0xFF800000#32) y = y := by
  simp [Ideal.ofBits, Ideal.ieee]

end Cert.Gcn.Spec

end
-- ==== Proof.LibKeepdimsColumn.lean ====
/-
  A row sum kept as a column, read at an index.

  `jnp.sum(x, axis=1, keepdims=True)` on an `[a, b]` array is a sum along the second axis into `[a]`, a recast of that to
  the column `[a, 1]`, and (where it meets an `[a, b]` operand) a broadcast of the column along the rows. Read at an
  index: the sum at row `p` is the sum of that row's `b` entries; the column at `(i, u)` is the sum at `i`; the broadcast
  at `(p, c)` is the column at `(p, 0)`. These are the column-shaped companions of the library's leading-unit-axis cast
  `[a] → [1, a]` and row broadcast `[1, b] → [a, b]`, stated over literal-extent index constructors so that they fire on
  coordinates of literal `Fin` types.
-/
import Idealize.ShloMosaic.Lib.Pipeline.Value
import Idealize.ShloMosaic.Lib.ValueIdx
import Idealize.ShloMosaic.Lib.ValueLayout
import Idealize.ShloMosaic.PureOps.Ideal.Laws

noncomputable section

namespace Cert.Gcn.Lib

open Idealize.ShloMosaic Idealize.ShloMosaic.ValueIdx

section Layout
variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- A sum along the second axis of an `[a, b]` array, at row `p`, is the sum of that row's `b` entries. -/
theorem rowsum_apply {a b : ℕ} (x : FVec Ideal ⟨2, ![a, b]⟩ .f32) (h : (⟨2, ![a, b]⟩ : Shape).Reduces [1] ⟨1, ![a]⟩)
    (hφ : FKind.Formats .f32) (hacc : (0x00000000#32 : BitVec 32) = 0x00000000#32) (p : Fin a) :
    multiReduction .add [1] ⟨1, ![a]⟩ x 0x00000000#32 h hφ hacc (ix1 p) = ∑ k : Fin b, x (ix2 p k) := by
  refine (Ideal.multiReduction_add_single x 0x00000000#32 h hφ hacc (ix1 p)).trans ?_
  refine Finset.sum_congr rfl fun k _ => congrArg x ?_
  funext d
  apply Fin.ext
  match d with
  | ⟨0, _⟩ => rfl
  | ⟨1, _⟩ => rfl

end Cert.Gcn.Lib

end
-- ==== Proof.Region1.lean ====
/-
  The second launch: the first layer's epilogue `max (agg + xw · d² + b) 0`, one block of 5000 rows at a time.

  Grid point `t` of 20 loads rows `5000 t … 5000 t + 4999` of the aggregated messages, of the projection and of the
  column of squared inverse root degrees, and the whole bias row; it combines them entry by entry, clamps at zero and
  writes the block back as rows `5000 t …` of the result. The value at `(p, q)` reads row `p` of the operands only,
  so the block's value at `(p, q)` is the whole array's at `(5000 t + p, q)`; the 20 blocks tile the 100000 rows.
-/
import proofs.«142394_j83640193122934_2_alg».proof.Proof.Gen.KernelIdeal.Frame
import proofs.«142394_j83640193122934_2_alg».proof.Proof.Spec
import proofs.«142394_j83640193122934_2_alg».proof.Proof.LibKeepdimsColumn
import Idealize.ShloMosaic.Lib.Pipeline.Value
import Idealize.ShloMosaic.Lib.ValueLayout

set_option maxRecDepth 16384

noncomputable section

namespace Cert.KernelIdeal.Whole

open Cert.KernelIdeal Cert.KernelIdeal.Gen
open Idealize.ShloMosaic Idealize.ShloMosaic.TcCoe Idealize.ShloMosaic.ValueIdx
open Idealize.ShloMosaic.Pipeline (Dat Cfg Window)
open Cert.Gcn.Spec Cert.Gcn.Lib

variable (V : (c : Dev nD) → (b : Ref sig .tc) → Buf (Elt Ideal) ((c : Thread nD τ).loc b))

theorem origin2₁ : (![0, 0] : Fin 2 → Nat) = fun _ => 0 := funext fun a => by fin_cases a <;> rfl

/-- What the body stores is the clamped combine of the four blocks it loaded: the column of degrees is spread
    along the rows, the bias row along the columns. -/
theorem combine1_block (x0 x1 : Vec Ideal S5000x64 .f32) (x2 : Vec Ideal S5000x1 .f32) (x3 : Vec Ideal S1x64 .f32) :
    out1_4 x0 x1 x2 x3 = clampZero (selfLoop x0 x1 x2 x3) := by
  unfold out1_4
  rw [View.canon_unit_zero origin2₁]
  simp only [View.ld_unit_zero (S := S5000x64) origin2₁, View.ld_unit_zero (S := S5000x1) origin2₁,
    View.ld_unit_zero (S := S1x64) origin2₁]
  unfold k1_pay1
  simp only [shapeCast_self]
  funext j
  obtain ⟨p, q, rfl⟩ : ∃ (p : Fin 5000) (q : Fin 64), j = ix2 p q := ⟨j 0, j 1, eq_ix2 j⟩
  show max ((x0 (ix2 p q) + x1 (ix2 p q) * broadcastTo S5000x64 x2 broadcasts_S5000x1_S5000x64 (ix2 p q))
      + broadcastTo S5000x64 x3 broadcasts_S1x64_S5000x64 (ix2 p q)) (Ideal.ofBits .f32 0x00000000#32) = _
  rw [broadcastTo_a1_ab_apply, broadcastTo_1b_ab_apply]
  rfl

/-- The printed index maps over the grid: the three row-blocked operands and the result move with the point along
    the rows; the bias row's block is the whole array. -/
theorem combine1_index : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- What grid point `t` writes back is block `t` of the clamped combine of the whole arrays. -/
theorem combine1_flushed (c : Dev nD) (t : Fin cfg1.N) :
    (dat1 V c).flushed 4 t
      = ((cfg1.win 4).blk t).view.read (Elt Ideal)
          (clampZero (selfLoop (V c main_v40) (V c main_v27) (V c main_v42) (V c main_v41))) := by
  show (cfg1.win 4).cut (grid1.coords t) ((dat1 V c).after 4 t) = _
  rw [after1_4, combine1_block]
  obtain ⟨e00, e01, e10, e11, e20, e21, e30, e31, e40, e41⟩ := combine1_index t
  have hN : cfg1.N = 20 := N_1
  have htN : t.val < 20 := hN ▸ t.isLt
  funext y
  obtain ⟨p, q, rfl⟩ : ∃ (p : Fin 5000) (q : Fin 64), y = ix2 p q := ⟨y 0, y 1, eq_ix2 y⟩
  have hp : p.val < 5000 := p.isLt
  let P : Fin 100000 := ⟨t.val * 5000 + p.val, by omega⟩
  have hE : ((cfg1.win 4).blk t).view.emb (ix2 p q) = ix2 P q := by
    funext a; apply Fin.ext
    match a with
    | ⟨0, _⟩ => show win1_4.index t (0 : Fin 2) * 5000 + 1 * p.val = t.val * 5000 + p.val; rw [e40]; omega
    | ⟨1, _⟩ => show win1_4.index t (1 : Fin 2) * 64 + 1 * q.val = q.val; rw [e41]; omega
  show clampZero (selfLoop (iblk1 V c 0 t) (iblk1 V c 1 t) (iblk1 V c 2 t) (iblk1 V c 3 t)) (ix2 p q)
    = clampZero (selfLoop (V c main_v40) (V c main_v27) (V c main_v42) (V c main_v41)) (((cfg1.win 4).blk t).view.emb (ix2 p q))
  rw [hE]
  refine clampLoop_rows (n := 100000) (n' := 5000) (c := 64) (V c main_v40) (V c main_v27) (V c main_v42) (V c main_v41)
    (iblk1 V c 0 t) (iblk1 V c 1 t) (iblk1 V c 2 t) (iblk1 V c 3 t) P p q ?_ ?_ ?_ ?_
  · show V c main_v40 (((cfg1.win 0).blk t).view.emb (ix2 p q)) = V c main_v40 (ix2 P q)
    refine congrArg (V c main_v40) (funext fun a => Fin.ext ?_)
    match a with
    | ⟨0, _⟩ => show win1_0.index t (0 : Fin 2) * 5000 + 1 * p.val = t.val * 5000 + p.val; rw [e00]; omega
    | ⟨1, _⟩ => show win1_0.index t (1 : Fin 2) * 64 + 1 * q.val = q.val; rw [e01]; omega
  · show V c main_v27 (((cfg1.win 1).blk t).view.emb (ix2 p q)) = V c main_v27 (ix2 P q)
    refine congrArg (V c main_v27) (funext fun a => Fin.ext ?_)
    match a with
    | ⟨0, _⟩ => show win1_1.index t (0 : Fin 2) * 5000 + 1 * p.val = t.val * 5000 + p.val; rw [e10]; omega
    | ⟨1, _⟩ => show win1_1.index t (1 : Fin 2) * 64 + 1 * q.val = q.val; rw [e11]; omega
  · show V c main_v42 (((cfg1.win 2).blk t).view.emb (ix2 p (0 : Fin 1))) = V c main_v42 (ix2 P (0 : Fin 1))
    refine congrArg (V c main_v42) (funext fun a => Fin.ext ?_)
    match a with
    | ⟨0, _⟩ => show win1_2.index t (0 : Fin 2) * 5000 + 1 * p.val = t.val * 5000 + p.val; rw [e20]; omega
    | ⟨1, _⟩ => show win1_2.index t (1 : Fin 2) * 1 + 1 * 0 = 0; rw [e21]
  · show V c main_v41 (((cfg1.win 3).blk t).view.emb (ix2 (0 : Fin 1) q)) = V c main_v41 (ix2 (0 : Fin 1) q)
    refine congrArg (V c main_v41) (funext fun a => Fin.ext ?_)
    match a with
    | ⟨0, _⟩ => show win1_3.index t (0 : Fin 2) * 1 + 1 * 0 = 0; rw [e30]
    | ⟨1, _⟩ => show win1_3.index t (1 : Fin 2) * 64 + 1 * q.val = q.val; rw [e31]; omega

/-- An index of the result array is in point `t`'s block iff each coordinate is in the block's range on its axis. -/
theorem combine1_mem (t : Fin cfg1.N) (i : S100000x64.Idx) :
    i ∈ ((cfg1.win 4).blk t).view.set ↔ ∀ a : Fin 2, win1_4.index t a * S5000x64.size a ≤ (i a).val
      ∧ (i a).val < win1_4.index t a * S5000x64.size a + S5000x64.size a := by
  show i ∈ ((View.whole main_v43).slice (win1_4.rect t)).set ↔ _
  rw [View.set_slice_whole, Rect.mem_set_unit]
  exact Iff.rfl

/-- Every row lies in the block of the point `row / 5000`. -/
theorem combine1_cover (i : S100000x64.Idx) :
    ∃ t : Fin cfg1.N, (cfg1.win 4).flush t = true ∧ i ∈ ((cfg1.win 4).blk t).view.set := by
  have hi0 : (i 0).val < 100000 := (i 0).isLt
  have hi1 : (i 1).val < 64 := (i 1).isLt
  have hN : cfg1.N = 20 := N_1
  let t : Fin cfg1.N := ⟨(i 0).val / 5000, by rw [hN]; omega⟩
  have ht : t.val = (i 0).val / 5000 := rfl
  obtain ⟨e00, e01, e10, e11, e20, e21, e30, e31, e40, e41⟩ := combine1_index t
  refine ⟨t, flush1_4 t, ?_⟩
  rw [combine1_mem]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 64 ≤ (i 1).val ∧ (i 1).val < win1_4.index t (1 : Fin 2) * 64 + 64; omega

/-- After the second launch its result array is the clamped combine of the arrays it found. -/
theorem combine1_array (c : Dev nD) :
    (dat1 V c).arrAt 4 cfg1.N
      = clampZero (selfLoop (V c main_v40) (V c main_v27) (V c main_v42) (V c main_v41)) :=
  (dat1 V c).arrAt_eq_of_cover 4 _ (fun t _ => combine1_flushed V c t) combine1_cover

end Cert.KernelIdeal.Whole

end
-- ==== Proof.Region2.lean ====
/-
  The third launch: the second projection `h · W2`, one block of 5000 rows at a time.

  Grid point `t` of 20 loads rows `5000 t … 5000 t + 4999` of the hidden activations and the whole 64 × 2 weight,
  multiplies them into a zero accumulator and writes the 5000 × 2 product back as rows `5000 t …` of the result.
  Rows of a product are the product of the rows, and the 20 blocks tile the 100000 rows, so the result array ends as
  the whole product of the two arrays the launch found.
-/
import proofs.«142394_j83640193122934_2_alg».proof.Proof.Gen.KernelIdeal.Frame
import proofs.«142394_j83640193122934_2_alg».proof.Proof.LibPlainDot
import Idealize.ShloMosaic.Lib.Pipeline.Value

set_option maxRecDepth 16384

noncomputable section

namespace Cert.KernelIdeal.Whole

open Cert.KernelIdeal Cert.KernelIdeal.Gen
open Idealize.ShloMosaic Idealize.ShloMosaic.TcCoe Idealize.ShloMosaic.ValueIdx
open Idealize.ShloMosaic.Pipeline (Dat Cfg Window)
open Cert.Lib.PlainDot

variable (V : (c : Dev nD) → (b : Ref sig .tc) → Buf (Elt Ideal) ((c : Thread nD τ).loc b))

theorem origin2' : (![0, 0] : Fin 2 → Nat) = fun _ => 0 := funext fun a => by fin_cases a <;> rfl

/-- What the body stores is the product of the two blocks it loaded (a change of float format is the identity on
    the extended reals, and the accumulator starts at zero). -/
theorem proj2_block (x0 : Vec Ideal S5000x64 .f32) (x1 : Vec Ideal S64x2 .f32) :
    out2_2 x0 x1 = rowsByCols x0 x1 := by
  unfold out2_2
  rw [View.canon_unit_zero origin2']
  simp only [View.ld_unit_zero (S := S5000x64) origin2', View.ld_unit_zero (S := S64x2) origin2']
  unfold k2_pay1
  simp only [shapeCast_self]
  exact matmul_zero_eq dot_S5000x64_S64x2_S5000x2_1_0_0_1_n_n rfl none _ _

/-- The printed index maps over the grid: the left operand's and the result's blocks are block `t` of the rows and
    the only block of the columns; the right operand's block is the whole array. -/
theorem proj2_index : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What grid point `t` writes back is block `t` of the whole product. -/
theorem proj2_flushed (c : Dev nD) (t : Fin cfg2.N) :
    (dat2 V c).flushed 2 t
      = ((cfg2.win 2).blk t).view.read (Elt Ideal) (rowsByCols (V c main_v43) (V c main_arg4)) := by
  show (cfg2.win 2).cut (grid2.coords t) ((dat2 V c).after 2 t) = _
  rw [after2_2, proj2_block]
  obtain ⟨e0, e1, e2, e3, e4, e5⟩ := proj2_index t
  funext y
  show rowsByCols (iblk2 V c 0 t) (iblk2 V c 1 t) y
    = rowsByCols (V c main_v43) (V c main_arg4) (((cfg2.win 2).blk t).view.emb y)
  rw [rowsByCols_apply, rowsByCols_apply]
  refine Finset.sum_congr rfl fun k _ => ?_
  refine congrArg₂ (· * ·) ?_ ?_
  · show V c main_v43 (((cfg2.win 0).blk t).view.emb (ix2 (y 0) k))
      = V c main_v43 (ix2 ((((cfg2.win 2).blk t).view.emb y) 0) k)
    refine congrArg (V c main_v43) (funext fun a => Fin.ext ?_)
    match a with
    | ⟨0, _⟩ => show win2_0.index t (0 : Fin 2) * 5000 + 1 * (y 0).val = win2_2.index t (0 : Fin 2) * 5000 + 1 * (y 0).val; rw [e0, e4]
    | ⟨1, _⟩ => show win2_0.index t (1 : Fin 2) * 64 + 1 * k.val = k.val; rw [e1]; omega
  · show V c main_arg4 (((cfg2.win 1).blk t).view.emb (ix2 k (y 1)))
      = V c main_arg4 (ix2 k ((((cfg2.win 2).blk t).view.emb y) 1))
    refine congrArg (V c main_arg4) (funext fun a => Fin.ext ?_)
    match a with
    | ⟨0, _⟩ => show win2_1.index t (0 : Fin 2) * 64 + 1 * k.val = k.val; rw [e2]; omega
    | ⟨1, _⟩ => show win2_1.index t (1 : Fin 2) * 2 + 1 * (y 1).val = win2_2.index t (1 : Fin 2) * 2 + 1 * (y 1).val; rw [e3, e5]

/-- An index of the result array is in point `t`'s block iff each coordinate is in the block's range on its axis. -/
theorem proj2_mem (t : Fin cfg2.N) (i : S100000x2.Idx) :
    i ∈ ((cfg2.win 2).blk t).view.set ↔ ∀ a : Fin 2, win2_2.index t a * S5000x2.size a ≤ (i a).val
      ∧ (i a).val < win2_2.index t a * S5000x2.size a + S5000x2.size a := by
  show i ∈ ((View.whole main_v44).slice (win2_2.rect t)).set ↔ _
  rw [View.set_slice_whole, Rect.mem_set_unit]
  exact Iff.rfl

/-- Every row lies in the block of the point `row / 5000`. -/
theorem proj2_cover (i : S100000x2.Idx) :
    ∃ t : Fin cfg2.N, (cfg2.win 2).flush t = true ∧ i ∈ ((cfg2.win 2).blk t).view.set := by
  have hi0 : (i 0).val < 100000 := (i 0).isLt
  have hi1 : (i 1).val < 2 := (i 1).isLt
  have hN : cfg2.N = 20 := N_2
  let t : Fin cfg2.N := ⟨(i 0).val / 5000, by rw [hN]; omega⟩
  have ht : t.val = (i 0).val / 5000 := rfl
  obtain ⟨e0, e1, e2, e3, e4, e5⟩ := proj2_index t
  refine ⟨t, flush2_2 t, ?_⟩
  rw [proj2_mem]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 2 ≤ (i 1).val ∧ (i 1).val < win2_2.index t (1 : Fin 2) * 2 + 2; omega

/-- After the third launch its result array is the whole product of the arrays it found. -/
theorem proj2_array (c : Dev nD) :
    (dat2 V c).arrAt 2 cfg2.N = rowsByCols (V c main_v43) (V c main_arg4) :=
  (dat2 V c).arrAt_eq_of_cover 2 _ (fun t _ => proj2_flushed V c t) proj2_cover

end Cert.KernelIdeal.Whole

end
-- ==== Proof.LibRowMax.lean ====
/-
  A row maximum taken from `-∞`, read at an index, on the extended reals.

  The maximum along the second axis of an `[n, b]` array at row `p` is the fold of `max`, from the value of the pattern
  `0xFF800000` (`-∞`), over the `b` entries of that row — for a kernel's `vector.multi_reduction <maximumf>` with that
  accumulator and for the host's `stablehlo.reduce` with a maximum body from that initial value alike. The reduced
  index `p` with column `k` put back is `(p, k)`.
-/
import Idealize.ShloMosaic.Lib.ValueIdx
import Idealize.ShloMosaic.PureOps.Ideal.Laws

noncomputable section

namespace Cert.Lib.RowMax

open Idealize.ShloMosaic Idealize.ShloMosaic.ValueIdx

/-- The reduced index `p` with column `k` put back is `(p, k)`. -/
theorem lift_row {n b : ℕ} (hr : (⟨2, ![n, b]⟩ : Shape).Reduces [1] ⟨1, ![n]⟩) (p : Fin n)
    (k : Fin ((⟨2, ![n, b]⟩ : Shape).size 1)) : hr.lift (ix1 p) k = ix2 p (⟨k.val, k.isLt⟩ : Fin b) := by
  funext d; apply Fin.ext
  match d with
  | ⟨0, _⟩ => rfl
  | ⟨1, _⟩ => rfl

/-- A kernel's maximum along the second axis, at row `p`, is the fold of `max` from `-∞` over that row. -/
theorem rowmax_apply {a b : ℕ} (x : FVec Ideal ⟨2, ![a, b]⟩ .f32) (h : (⟨2, ![a, b]⟩ : Shape).Reduces [1] ⟨1, ![a]⟩)
    (hφ : FKind.Formats .f32) (hacc : (0xFF800000#32 : BitVec 32) = 0xFF800000#32) (p : Fin a) :
    multiReduction .maximumf [1] ⟨1, ![a]⟩ x 0xFF800000#32 h hφ hacc (ix1 p)
      = (Finset.univ : Finset (Fin b)).fold max (Ideal.ofBits .f32 0xFF800000#32) (fun k => x (ix2 p k)) := by
  refine (Ideal.multiReduction_maximumf_single x 0xFF800000#32 h hφ hacc (ix1 p)).trans ?_
  have hf : (x ∘ h.lift (ix1 p)) = fun k : Fin b => x (ix2 p k) := funext fun k => congrArg x (lift_row h p k)
  exact congrArg (fun f => Finset.fold max (Ideal.ofBits .f32 0xFF800000#32) f (Finset.univ : Finset (Fin b))) hf

/-- The host's reduce with a maximum body from `-∞` along the second axis, at row `p`, is the same fold. -/
theorem hostRowMax_apply {n b : ℕ} (z : FVec Ideal ⟨2, ![n, b]⟩ .f32) (hrt : (⟨2, ![n, b]⟩ : Shape).ReducesTo [1] ⟨1, ![n]⟩)
    (hr : (⟨2, ![n, b]⟩ : Shape).Reduces [1] ⟨1, ![n]⟩) (hu : 0 < (⟨0, ![]⟩ : Shape).numel) (p : Fin n) :
    Host.reduce FloatOps.maximumf z (constant (F := Ideal) ⟨0, ![]⟩ .f32 0xFF800000#32) hrt hu (ix1 p)
      = (Finset.univ : Finset (Fin b)).fold max (Ideal.ofBits .f32 0xFF800000#32) (fun k => z (ix2 p k)) := by
  rw [Host.reduce_eq_fold_single FloatOps.maximumf z _ hrt hr hu]
  have hf : (z ∘ hr.lift (ix1 p)) = fun k : Fin b => z (ix2 p k) := funext fun k => congrArg z (lift_row hr p k)
  exact congrArg (fun f => Finset.fold max (Ideal.ofBits .f32 0xFF800000#32) f (Finset.univ : Finset (Fin b))) hf

end Cert.Lib.RowMax

end
-- ==== Proof.SoftBlock.lean ====
/-
  A row-wise normalised exponential computed on a block of rows, read at an index.

  The kernel takes each row's maximum (from `-∞`) along the two columns, recasts the `[a]` vector of maxima as a column
  and spreads it back along the columns, subtracts, exponentiates, sums each row the same way and divides. Read at
  `(p, q)`: the maximum and the sum are row `p`'s, so the result is the normalised exponential of row `p`.
-/
import proofs.«142394_j83640193122934_2_alg».proof.Proof.Spec
import proofs.«142394_j83640193122934_2_alg».proof.Proof.LibKeepdimsColumn
import proofs.«142394_j83640193122934_2_alg».proof.Proof.LibRowMax

noncomputable section

namespace Cert.Gcn.Soft

open Idealize.ShloMosaic Idealize.ShloMosaic.ValueIdx Cert.Gcn.Spec Cert.Gcn.Lib Cert.Lib.RowMax

/-- A vector of per-row values recast as a column and spread along the columns reads, at `(p, q)`, the value of row `p`. -/
theorem spread_apply {a b : ℕ} (r : FVec Ideal ⟨1, ![a]⟩ .f32) (hc : (⟨1, ![a]⟩ : Shape).ShapeCasts ⟨2, ![a, 1]⟩)
    (hb : (⟨2, ![a, 1]⟩ : Shape).Broadcasts ⟨2, ![a, b]⟩) (p : Fin a) (q : Fin b) :
    broadcastTo ⟨2, ![a, b]⟩ (shapeCast ⟨2, ![a, 1]⟩ r hc) hb (ix2 p q) = r (ix1 p) := by
  rw [broadcastTo_a1_ab_apply, shapeCast_a_a1_apply]

/-- The block computation is the row-wise normalised exponential. -/
theorem softBlock {a : ℕ} (z : FVec Ideal ⟨2, ![a, 2]⟩ .f32) (hr : (⟨2, ![a, 2]⟩ : Shape).Reduces [1] ⟨1, ![a]⟩)
    (hc : (⟨1, ![a]⟩ : Shape).ShapeCasts ⟨2, ![a, 1]⟩) (hb : (⟨2, ![a, 1]⟩ : Shape).Broadcasts ⟨2, ![a, 2]⟩)
    (hφ hφ' : FKind.Formats .f32) (hacc : (0xFF800000#32 : BitVec 32) = 0xFF800000#32)
    (hacc' : (0x00000000#32 : BitVec 32) = 0x00000000#32) :
    divf (exp (subf z (broadcastTo ⟨2, ![a, 2]⟩ (shapeCast ⟨2, ![a, 1]⟩
        (multiReduction .maximumf [1] ⟨1, ![a]⟩ z 0xFF800000#32 hr hφ hacc) hc) hb)))
      (broadcastTo ⟨2, ![a, 2]⟩ (shapeCast ⟨2, ![a, 1]⟩
        (multiReduction .add [1] ⟨1, ![a]⟩ (exp (subf z (broadcastTo ⟨2, ![a, 2]⟩ (shapeCast ⟨2, ![a, 1]⟩
          (multiReduction .maximumf [1] ⟨1, ![a]⟩ z 0xFF800000#32 hr hφ hacc) hc) hb))) 0x00000000#32 hr hφ' hacc') hc) hb)
      = softRows z := by
  funext j
  obtain ⟨p, q, rfl⟩ : ∃ (p : Fin a) (q : Fin 2), j = ix2 p q := ⟨j 0, j 1, eq_ix2 j⟩
  rw [softRows_apply]
  have hE : ∀ k : Fin 2, exp (subf z (broadcastTo ⟨2, ![a, 2]⟩ (shapeCast ⟨2, ![a, 1]⟩
        (multiReduction .maximumf [1] ⟨1, ![a]⟩ z 0xFF800000#32 hr hφ hacc) hc) hb)) (ix2 p k)
      = Ideal.exp (z (ix2 p k) - rowTop z p) := by
    intro k
    show Ideal.exp (z (ix2 p k) - broadcastTo ⟨2, ![a, 2]⟩ (shapeCast ⟨2, ![a, 1]⟩
        (multiReduction .maximumf [1] ⟨1, ![a]⟩ z 0xFF800000#32 hr hφ hacc) hc) hb (ix2 p k)) = _
    rw [spread_apply, rowmax_apply]
    rfl
  show Ideal.div (exp (subf z (broadcastTo ⟨2, ![a, 2]⟩ (shapeCast ⟨2, ![a, 1]⟩
        (multiReduction .maximumf [1] ⟨1, ![a]⟩ z 0xFF800000#32 hr hφ hacc) hc) hb)) (ix2 p q))
      (broadcastTo ⟨2, ![a, 2]⟩ (shapeCast ⟨2, ![a, 1]⟩
        (multiReduction .add [1] ⟨1, ![a]⟩ (exp (subf z (broadcastTo ⟨2, ![a, 2]⟩ (shapeCast ⟨2, ![a, 1]⟩
          (multiReduction .maximumf [1] ⟨1, ![a]⟩ z 0xFF800000#32 hr hφ hacc) hc) hb))) 0x00000000#32 hr hφ' hacc') hc) hb (ix2 p q)) = _
  rw [spread_apply, rowsum_apply, hE q]
  refine congrArg _ (Finset.sum_congr rfl fun k _ => hE k)

end Cert.Gcn.Soft

end
-- ==== Proof.Region3.lean ====
/-
  The fourth launch: the second layer's epilogue, the row-wise normalised exponential of `agg + xw · d² + b`, one block
  of 5000 rows at a time.

  Grid point `t` of 20 loads rows `5000 t … 5000 t + 4999` of the aggregated messages, of the projection and of the
  column of squared inverse root degrees, and the whole bias row; it combines them entry by entry, normalises each
  row of two entries and writes the block back as rows `5000 t …` of the result. The value at `(p, q)` reads row `p`
  of the operands only, so the block's value at `(p, q)` is the whole array's at `(5000 t + p, q)`; the 20 blocks tile
  the 100000 rows.
-/
import proofs.«142394_j83640193122934_2_alg».proof.Proof.Gen.KernelIdeal.Frame
import proofs.«142394_j83640193122934_2_alg».proof.Proof.Spec
import proofs.«142394_j83640193122934_2_alg».proof.Proof.SoftBlock
import proofs.«142394_j83640193122934_2_alg».proof.Proof.LibKeepdimsColumn
import Idealize.ShloMosaic.Lib.Pipeline.Value
import Idealize.ShloMosaic.Lib.ValueLayout

set_option maxRecDepth 16384

noncomputable section

namespace Cert.KernelIdeal.Whole

open Cert.KernelIdeal Cert.KernelIdeal.Gen
open Idealize.ShloMosaic Idealize.ShloMosaic.TcCoe Idealize.ShloMosaic.ValueIdx
open Idealize.ShloMosaic.Pipeline (Dat Cfg Window)
open Cert.Gcn.Spec Cert.Gcn.Lib Cert.Gcn.Soft

variable (V : (c : Dev nD) → (b : Ref sig .tc) → Buf (Elt Ideal) ((c : Thread nD τ).loc b))

theorem origin2₃ : (![0, 0] : Fin 2 → Nat) = fun _ => 0 := funext fun a => by fin_cases a <;> rfl

/-- The combine inside the body, as one function of the four blocks. -/
theorem combine2_pre (x0 x1 : Vec Ideal S5000x2 .f32) (x2 : Vec Ideal S5000x1 .f32) (x3 : Vec Ideal S1x2 .f32) :
    addf (addf x0 (mulf x1 (broadcastTo S5000x2 x2 broadcasts_S5000x1_S5000x2))) (broadcastTo S5000x2 x3 broadcasts_S1x2_S5000x2)
      = selfLoop x0 x1 x2 x3 := by
  funext j
  obtain ⟨p, q, rfl⟩ : ∃ (p : Fin 5000) (q : Fin 2), j = ix2 p q := ⟨j 0, j 1, eq_ix2 j⟩
  show (x0 (ix2 p q) + x1 (ix2 p q) * broadcastTo S5000x2 x2 broadcasts_S5000x1_S5000x2 (ix2 p q))
      + broadcastTo S5000x2 x3 broadcasts_S1x2_S5000x2 (ix2 p q) = _
  rw [broadcastTo_a1_ab_apply, broadcastTo_1b_ab_apply]
  rfl

/-- What the body stores is the normalised combine of the four blocks it loaded. -/
theorem combine2_block (x0 x1 : Vec Ideal S5000x2 .f32) (x2 : Vec Ideal S5000x1 .f32) (x3 : Vec Ideal S1x2 .f32) :
    out3_4 x0 x1 x2 x3 = softRows (selfLoop x0 x1 x2 x3) := by
  unfold out3_4
  rw [View.canon_unit_zero origin2₃]
  simp only [View.ld_unit_zero (S := S5000x2) origin2₃, View.ld_unit_zero (S := S5000x1) origin2₃,
    View.ld_unit_zero (S := S1x2) origin2₃]
  unfold k3_pay1
  simp only [shapeCast_self, combine2_pre]
  exact softBlock (a := 5000) (selfLoop x0 x1 x2 x3) reduces_S5000x2_S5000 shapeCasts_S5000_S5000x1
    broadcasts_S5000x1_S5000x2 (.inl rfl) (.inl rfl) rfl rfl

/-- The printed index maps over the grid: the three row-blocked operands and the result move with the point along
    the rows; the bias row's block is the whole array. -/
theorem combine2_index : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- What grid point `t` writes back is block `t` of the normalised combine of the whole arrays. -/
theorem combine2_flushed (c : Dev nD) (t : Fin cfg3.N) :
    (dat3 V c).flushed 4 t
      = ((cfg3.win 4).blk t).view.read (Elt Ideal)
          (softRows (selfLoop (V c main_v57) (V c main_v44) (V c main_v59) (V c main_v58))) := by
  show (cfg3.win 4).cut (grid3.coords t) ((dat3 V c).after 4 t) = _
  rw [after3_4, combine2_block]
  obtain ⟨e00, e01, e10, e11, e20, e21, e30, e31, e40, e41⟩ := combine2_index t
  have hN : cfg3.N = 20 := N_3
  have htN : t.val < 20 := hN ▸ t.isLt
  funext y
  obtain ⟨p, q, rfl⟩ : ∃ (p : Fin 5000) (q : Fin 2), y = ix2 p q := ⟨y 0, y 1, eq_ix2 y⟩
  have hp : p.val < 5000 := p.isLt
  let P : Fin 100000 := ⟨t.val * 5000 + p.val, by omega⟩
  have hE : ((cfg3.win 4).blk t).view.emb (ix2 p q) = ix2 P q := by
    funext a; apply Fin.ext
    match a with
    | ⟨0, _⟩ => show win3_4.index t (0 : Fin 2) * 5000 + 1 * p.val = t.val * 5000 + p.val; rw [e40]; omega
    | ⟨1, _⟩ => show win3_4.index t (1 : Fin 2) * 2 + 1 * q.val = q.val; rw [e41]; omega
  show softRows (selfLoop (iblk3 V c 0 t) (iblk3 V c 1 t) (iblk3 V c 2 t) (iblk3 V c 3 t)) (ix2 p q)
    = softRows (selfLoop (V c main_v57) (V c main_v44) (V c main_v59) (V c main_v58)) (((cfg3.win 4).blk t).view.emb (ix2 p q))
  rw [hE]
  refine softLoop_rows (n := 100000) (n' := 5000) (V c main_v57) (V c main_v44) (V c main_v59) (V c main_v58)
    (iblk3 V c 0 t) (iblk3 V c 1 t) (iblk3 V c 2 t) (iblk3 V c 3 t) P p q (fun k => ?_) (fun k => ?_) ?_ (fun k => ?_)
  · show V c main_v57 (((cfg3.win 0).blk t).view.emb (ix2 p k)) = V c main_v57 (ix2 P k)
    refine congrArg (V c main_v57) (funext fun a => Fin.ext ?_)
    match a with
    | ⟨0, _⟩ => show win3_0.index t (0 : Fin 2) * 5000 + 1 * p.val = t.val * 5000 + p.val; rw [e00]; omega
    | ⟨1, _⟩ => show win3_0.index t (1 : Fin 2) * 2 + 1 * k.val = k.val; rw [e01]; omega
  · show V c main_v44 (((cfg3.win 1).blk t).view.emb (ix2 p k)) = V c main_v44 (ix2 P k)
    refine congrArg (V c main_v44) (funext fun a => Fin.ext ?_)
    match a with
    | ⟨0, _⟩ => show win3_1.index t (0 : Fin 2) * 5000 + 1 * p.val = t.val * 5000 + p.val; rw [e10]; omega
    | ⟨1, _⟩ => show win3_1.index t (1 : Fin 2) * 2 + 1 * k.val = k.val; rw [e11]; omega
  · show V c main_v59 (((cfg3.win 2).blk t).view.emb (ix2 p (0 : Fin 1))) = V c main_v59 (ix2 P (0 : Fin 1))
    refine congrArg (V c main_v59) (funext fun a => Fin.ext ?_)
    match a with
    | ⟨0, _⟩ => show win3_2.index t (0 : Fin 2) * 5000 + 1 * p.val = t.val * 5000 + p.val; rw [e20]; omega
    | ⟨1, _⟩ => show win3_2.index t (1 : Fin 2) * 1 + 1 * 0 = 0; rw [e21]
  · show V c main_v58 (((cfg3.win 3).blk t).view.emb (ix2 (0 : Fin 1) k)) = V c main_v58 (ix2 (0 : Fin 1) k)
    refine congrArg (V c main_v58) (funext fun a => Fin.ext ?_)
    match a with
    | ⟨0, _⟩ => show win3_3.index t (0 : Fin 2) * 1 + 1 * 0 = 0; rw [e30]
    | ⟨1, _⟩ => show win3_3.index t (1 : Fin 2) * 2 + 1 * k.val = k.val; rw [e31]; omega

/-- An index of the result array is in point `t`'s block iff each coordinate is in the block's range on its axis. -/
theorem combine2_mem (t : Fin cfg3.N) (i : S100000x2.Idx) :
    i ∈ ((cfg3.win 4).blk t).view.set ↔ ∀ a : Fin 2, win3_4.index t a * S5000x2.size a ≤ (i a).val
      ∧ (i a).val < win3_4.index t a * S5000x2.size a + S5000x2.size a := by
  show i ∈ ((View.whole main_v60).slice (win3_4.rect t)).set ↔ _
  rw [View.set_slice_whole, Rect.mem_set_unit]
  exact Iff.rfl

/-- Every row lies in the block of the point `row / 5000`. -/
theorem combine2_cover (i : S100000x2.Idx) :
    ∃ t : Fin cfg3.N, (cfg3.win 4).flush t = true ∧ i ∈ ((cfg3.win 4).blk t).view.set := by
  have hi0 : (i 0).val < 100000 := (i 0).isLt
  have hi1 : (i 1).val < 2 := (i 1).isLt
  have hN : cfg3.N = 20 := N_3
  let t : Fin cfg3.N := ⟨(i 0).val / 5000, by rw [hN]; omega⟩
  have ht : t.val = (i 0).val / 5000 := rfl
  obtain ⟨e00, e01, e10, e11, e20, e21, e30, e31, e40, e41⟩ := combine2_index t
  refine ⟨t, flush3_4 t, ?_⟩
  rw [combine2_mem]
  intro a
  match a with
  | ⟨0, _⟩ => show win3_4.index t (0 : Fin 2) * 5000 ≤ (i 0).val ∧ (i 0).val < win3_4.index t (0 : Fin 2) * 5000 + 5000; omega
  | ⟨1, _⟩ => show win3_4.index t (1 : Fin 2) * 2 ≤ (i 1).val ∧ (i 1).val < win3_4.index t (1 : Fin 2) * 2 + 2; omega

/-- After the fourth launch its result array is the normalised combine of the arrays it found. -/
theorem combine2_array (c : Dev nD) :
    (dat3 V c).arrAt 4 cfg3.N
      = softRows (selfLoop (V c main_v57) (V c main_v44) (V c main_v59) (V c main_v58)) :=
  (dat3 V c).arrAt_eq_of_cover 4 _ (fun t _ => combine2_flushed V c t) combine2_cover

end Cert.KernelIdeal.Whole

end
-- ==== Proof.LibBcastChain.lean ====
/-
  A vector spread over a matrix by two `broadcast_in_dim`s, read at an index.

  jnp spreads a per-row vector `d : [n]` over an `[n, c]` array as `[n] → [n,1]` (dims = [0]) then `[n,1] → [n,c]`
  (dims = [0,1]), and a per-column vector `b : [c]` as `[c] → [1,c]` (dims = [1]) then `[1,c] → [n,c]` (dims = [0,1]).
  Read at `(p, q)` the first is `d[p]` and the second `b[q]`; a scalar spread over any shape (dims = []) reads the scalar
  everywhere. Stated over literal-extent index constructors, for any extents (a unit extent included).
-/
import Idealize.ShloMosaic.Lib.Pipeline.Value
import Idealize.ShloMosaic.Lib.ValueIdx

noncomputable section

namespace Cert.Lib.BcastChain

open Idealize.ShloMosaic Idealize.ShloMosaic.ValueIdx

variable {α : Type}

/-- A vector spread over the columns by `[n] → [n,1] → [n,c]` reads, at `(p, q)`, its entry `p`. -/
theorem overCols_apply {n c : ℕ} (d : (⟨1, ![n]⟩ : Shape).Idx → α)
    (h1 : (⟨1, ![n]⟩ : Shape).BroadcastsInDim ⟨2, ![n, 1]⟩ ![0])
    (h2 : (⟨2, ![n, 1]⟩ : Shape).BroadcastsInDim ⟨2, ![n, c]⟩ ![0, 1]) (p : Fin n) (q : Fin c) :
    broadcastInDim ⟨2, ![n, c]⟩ ![0, 1] h2 (broadcastInDim ⟨2, ![n, 1]⟩ ![0] h1 d) (ix2 p q) = d (ix1 p) := by
  rw [broadcastInDim_apply ![0, 1] h2 _ (ix2 p q) (ix2 p (0 : Fin 1)) (fun a => by
    match a with
    | ⟨0, _⟩ =>
      show p.val = if n = 1 then 0 else p.val
      split
      · have := p.isLt; omega
      · rfl
    | ⟨1, _⟩ => show 0 = if (1 : ℕ) = 1 then 0 else q.val; rw [if_pos rfl])]
  exact broadcastInDim_apply ![0] h1 d (ix2 p (0 : Fin 1)) (ix1 p) (fun a => by
    match a with
    | ⟨0, _⟩ =>
      show p.val = if n = 1 then 0 else p.val
      split
      · have := p.isLt; omega
      · rfl)

/-- A vector spread over the rows by `[c] → [1,c] → [n,c]` reads, at `(p, q)`, its entry `q`. -/
theorem overRows_apply {n c : ℕ} (b : (⟨1, ![c]⟩ : Shape).Idx → α)
    (h3 : (⟨1, ![c]⟩ : Shape).BroadcastsInDim ⟨2, ![1, c]⟩ ![1])
    (h4 : (⟨2, ![1, c]⟩ : Shape).BroadcastsInDim ⟨2, ![n, c]⟩ ![0, 1]) (p : Fin n) (q : Fin c) :
    broadcastInDim ⟨2, ![n, c]⟩ ![0, 1] h4 (broadcastInDim ⟨2, ![1, c]⟩ ![1] h3 b) (ix2 p q) = b (ix1 q) := by
  rw [broadcastInDim_apply ![0, 1] h4 _ (ix2 p q) (ix2 (0 : Fin 1) q) (fun a => by
    match a with
    | ⟨0, _⟩ => show 0 = if (1 : ℕ) = 1 then 0 else p.val; rw [if_pos rfl]
    | ⟨1, _⟩ =>
      show q.val = if c = 1 then 0 else q.val
      split
      · have := q.isLt; omega
      · rfl)]
  exact broadcastInDim_apply ![1] h3 b (ix2 (0 : Fin 1) q) (ix1 q) (fun a => by
    match a with
    | ⟨0, _⟩ =>
      show q.val = if c = 1 then 0 else q.val
      split
      · have := q.isLt; omega
      · rfl)

/-- A scalar spread over any shape reads the scalar everywhere. -/
theorem overAll_apply {t : Shape} (x : (⟨0, ![]⟩ : Shape).Idx → α) (dims : Fin 0 → Fin t.rank)
    (h : (⟨0, ![]⟩ : Shape).BroadcastsInDim t dims) (j : t.Idx) : broadcastInDim t dims h x j = x ix0 :=
  broadcastInDim_apply dims h x j ix0 (fun a => a.elim0)

end Cert.Lib.BcastChain

end
-- ==== Proof.HostTail.lean ====
/-
  The reference's two epilogues, read at an index.

  The reference spreads the vector of squared inverse root degrees over the columns by two broadcasts
  (`[n] → [n,1] → [n,c]`), the bias over the rows likewise (`[c] → [1,c] → [n,c]`), combines, and either clamps at zero
  or normalises each row (row maximum by a reduce from `-∞`, joined once more with `-∞`; exponentials; row sum by a
  reduce from `0`; quotient). Index by index these are the clamped and the normalised combine of the same four
  operands with the degrees recast as a column and the bias as a row.
-/
import proofs.«142394_j83640193122934_2_alg».proof.Proof.Spec
import proofs.«142394_j83640193122934_2_alg».proof.Proof.LibKeepdimsColumn
import proofs.«142394_j83640193122934_2_alg».proof.Proof.LibBcastChain
import proofs.«142394_j83640193122934_2_alg».proof.Proof.LibRowMax
import Idealize.ShloMosaic.Lib.Pipeline.Value
import Idealize.ShloMosaic.Lib.ValueLayout
import Idealize.ShloMosaic.PureOps.Ideal.Laws

noncomputable section

namespace Cert.Gcn.HostTail

open Idealize.ShloMosaic Idealize.ShloMosaic.ValueIdx Cert.Gcn.Spec Cert.Gcn.Lib Cert.Lib.BcastChain Cert.Lib.RowMax

/-- The combine with the reference's broadcasts is the combine with the degrees as a column and the bias as a row. -/
theorem combine_eq {n c : ℕ} (agg xw : FVec Ideal ⟨2, ![n, c]⟩ .f32) (d : FVec Ideal ⟨1, ![n]⟩ .f32) (b : FVec Ideal ⟨1, ![c]⟩ .f32)
    (h1 : (⟨1, ![n]⟩ : Shape).BroadcastsInDim ⟨2, ![n, 1]⟩ ![0])
    (h2 : (⟨2, ![n, 1]⟩ : Shape).BroadcastsInDim ⟨2, ![n, c]⟩ ![0, 1])
    (h3 : (⟨1, ![c]⟩ : Shape).BroadcastsInDim ⟨2, ![1, c]⟩ ![1])
    (h4 : (⟨2, ![1, c]⟩ : Shape).BroadcastsInDim ⟨2, ![n, c]⟩ ![0, 1])
    (hc1 : (⟨1, ![n]⟩ : Shape).ShapeCasts ⟨2, ![n, 1]⟩) (hc2 : (⟨1, ![c]⟩ : Shape).ShapeCasts ⟨2, ![1, c]⟩) :
    addf (addf agg (mulf xw (broadcastInDim ⟨2, ![n, c]⟩ ![0, 1] h2 (broadcastInDim ⟨2, ![n, 1]⟩ ![0] h1 d))))
        (broadcastInDim ⟨2, ![n, c]⟩ ![0, 1] h4 (broadcastInDim ⟨2, ![1, c]⟩ ![1] h3 b))
      = selfLoop agg xw (shapeCast ⟨2, ![n, 1]⟩ d hc1) (shapeCast ⟨2, ![1, c]⟩ b hc2) := by
  funext j
  obtain ⟨p, q, rfl⟩ : ∃ (p : Fin n) (q : Fin c), j = ix2 p q := ⟨j 0, j 1, eq_ix2 j⟩
  rw [selfLoop_apply, shapeCast_a_a1_apply, shapeCast_a_1a_apply]
  show (agg (ix2 p q) + xw (ix2 p q) * broadcastInDim ⟨2, ![n, c]⟩ ![0, 1] h2 (broadcastInDim ⟨2, ![n, 1]⟩ ![0] h1 d) (ix2 p q))
      + broadcastInDim ⟨2, ![n, c]⟩ ![0, 1] h4 (broadcastInDim ⟨2, ![1, c]⟩ ![1] h3 b) (ix2 p q) = _
  rw [overCols_apply, overRows_apply]

/-- The reference's clamp: the maximum with a zero spread over the shape. -/
theorem clamp_eq {n c : ℕ} (z : FVec Ideal ⟨2, ![n, c]⟩ .f32)
    (h5 : (⟨0, ![]⟩ : Shape).BroadcastsInDim ⟨2, ![n, c]⟩ ![]) :
    maximumf z (broadcastInDim ⟨2, ![n, c]⟩ ![] h5 (constant (F := Ideal) ⟨0, ![]⟩ .f32 0x00000000#32)) = clampZero z := by
  funext j
  show max (z j) (broadcastInDim ⟨2, ![n, c]⟩ ![] h5 (constant (F := Ideal) ⟨0, ![]⟩ .f32 0x00000000#32) j) = _
  rw [overAll_apply]
  rfl

/-- The reference's row normalisation is the row-wise normalised exponential. -/
theorem soft_eq {n : ℕ} (z : FVec Ideal ⟨2, ![n, 2]⟩ .f32) (hrt : (⟨2, ![n, 2]⟩ : Shape).ReducesTo [1] ⟨1, ![n]⟩)
    (hr : (⟨2, ![n, 2]⟩ : Shape).Reduces [1] ⟨1, ![n]⟩) (hu : 0 < (⟨0, ![]⟩ : Shape).numel)
    (h0 : (⟨0, ![]⟩ : Shape).BroadcastsInDim ⟨1, ![n]⟩ ![])
    (h1 : (⟨1, ![n]⟩ : Shape).BroadcastsInDim ⟨2, ![n, 1]⟩ ![0])
    (h2 : (⟨2, ![n, 1]⟩ : Shape).BroadcastsInDim ⟨2, ![n, 2]⟩ ![0, 1]) :
    Host.divf (Host.exp (subf z (broadcastInDim ⟨2, ![n, 2]⟩ ![0, 1] h2 (broadcastInDim ⟨2, ![n, 1]⟩ ![0] h1
        (maximumf (broadcastInDim ⟨1, ![n]⟩ ![] h0 (constant (F := Ideal) ⟨0, ![]⟩ .f32 0xFF800000#32))
          (Host.reduce FloatOps.maximumf z (constant (F := Ideal) ⟨0, ![]⟩ .f32 0xFF800000#32) hrt hu))))))
      (broadcastInDim ⟨2, ![n, 2]⟩ ![0, 1] h2 (broadcastInDim ⟨2, ![n, 1]⟩ ![0] h1
        (Host.reduceAdd (Host.exp (subf z (broadcastInDim ⟨2, ![n, 2]⟩ ![0, 1] h2 (broadcastInDim ⟨2, ![n, 1]⟩ ![0] h1
          (maximumf (broadcastInDim ⟨1, ![n]⟩ ![] h0 (constant (F := Ideal) ⟨0, ![]⟩ .f32 0xFF800000#32))
            (Host.reduce FloatOps.maximumf z (constant (F := Ideal) ⟨0, ![]⟩ .f32 0xFF800000#32) hrt hu))))))
          (constant (F := Ideal) ⟨0, ![]⟩ .f32 0x00000000#32) hrt hu)))
      = softRows z := by
  have hM : ∀ p : Fin n, maximumf (broadcastInDim ⟨1, ![n]⟩ ![] h0 (constant (F := Ideal) ⟨0, ![]⟩ .f32 0xFF800000#32))
      (Host.reduce FloatOps.maximumf z (constant (F := Ideal) ⟨0, ![]⟩ .f32 0xFF800000#32) hrt hu) (ix1 p) = rowTop z p := by
    intro p
    show max (broadcastInDim ⟨1, ![n]⟩ ![] h0 (constant (F := Ideal) ⟨0, ![]⟩ .f32 0xFF800000#32) (ix1 p))
      (Host.reduce FloatOps.maximumf z (constant (F := Ideal) ⟨0, ![]⟩ .f32 0xFF800000#32) hrt hu (ix1 p)) = _
    rw [overAll_apply, hostRowMax_apply z hrt hr hu p]
    exact max_negInf _
  have hE : ∀ (p : Fin n) (k : Fin 2), Host.exp (subf z (broadcastInDim ⟨2, ![n, 2]⟩ ![0, 1] h2 (broadcastInDim ⟨2, ![n, 1]⟩ ![0] h1
        (maximumf (broadcastInDim ⟨1, ![n]⟩ ![] h0 (constant (F := Ideal) ⟨0, ![]⟩ .f32 0xFF800000#32))
          (Host.reduce FloatOps.maximumf z (constant (F := Ideal) ⟨0, ![]⟩ .f32 0xFF800000#32) hrt hu))))) (ix2 p k)
      = Ideal.exp (z (ix2 p k) - rowTop z p) := by
    intro p k
    show Ideal.exp (z (ix2 p k) - broadcastInDim ⟨2, ![n, 2]⟩ ![0, 1] h2 (broadcastInDim ⟨2, ![n, 1]⟩ ![0] h1
        (maximumf (broadcastInDim ⟨1, ![n]⟩ ![] h0 (constant (F := Ideal) ⟨0, ![]⟩ .f32 0xFF800000#32))
          (Host.reduce FloatOps.maximumf z (constant (F := Ideal) ⟨0, ![]⟩ .f32 0xFF800000#32) hrt hu))) (ix2 p k)) = _
    rw [overCols_apply, hM]
  generalize hEdef : Host.exp (subf z (broadcastInDim ⟨2, ![n, 2]⟩ ![0, 1] h2 (broadcastInDim ⟨2, ![n, 1]⟩ ![0] h1
        (maximumf (broadcastInDim ⟨1, ![n]⟩ ![] h0 (constant (F := Ideal) ⟨0, ![]⟩ .f32 0xFF800000#32))
          (Host.reduce FloatOps.maximumf z (constant (F := Ideal) ⟨0, ![]⟩ .f32 0xFF800000#32) hrt hu))))) = E at hE ⊢
  funext j
  obtain ⟨p, q, rfl⟩ : ∃ (p : Fin n) (q : Fin 2), j = ix2 p q := ⟨j 0, j 1, eq_ix2 j⟩
  rw [softRows_apply]
  show Ideal.div (E (ix2 p q)) (broadcastInDim ⟨2, ![n, 2]⟩ ![0, 1] h2 (broadcastInDim ⟨2, ![n, 1]⟩ ![0] h1
        (Host.reduceAdd E (constant (F := Ideal) ⟨0, ![]⟩ .f32 0x00000000#32) hrt hu)) (ix2 p q)) = _
  rw [overCols_apply, hE p q]
  refine congrArg _ ?_
  simp only [Host.reduceAdd, Ideal.hostReduceAdd_def]
  rw [Ideal.hostReduceAdd_single hrt hr]
  show Ideal.ofBits .f32 0x00000000#32 + _ = _
  rw [Ideal.ofBits_zero_f32, zero_add]
  refine Finset.sum_congr rfl fun k _ => ?_
  rw [lift_row hr p k]
  exact hE p _

end Cert.Gcn.HostTail

end
-- ==== Proof.RefTail.lean ====
/-
  The reference's two layers end in the two epilogues of the specification.

  Read one operation at a time, the first layer's activations are the clamped combine of its aggregated messages, its
  projection, its squared inverse root degrees (as a column) and its bias (as a row); the result is the normalised
  combine of the second layer's. The projections are whole matrix products.
-/
import proofs.«142394_j83640193122934_2_alg».proof.Proof.Gen.ReferenceIdeal.Read
import proofs.«142394_j83640193122934_2_alg».proof.Proof.HostTail
import proofs.«142394_j83640193122934_2_alg».proof.Proof.LibPlainDot

noncomputable section

namespace Cert.ReferenceIdeal.RefValue

open Cert.ReferenceIdeal Cert.ReferenceIdeal.Gen Cert.ReferenceIdeal.Read
open Idealize.ShloMosaic Idealize.ShloMosaic.ValueIdx
open Cert.Gcn.Spec Cert.Gcn.HostTail Cert.Lib.PlainDot

/-- The first projection is the whole product `x · W1`. -/
theorem proj1_eq (x0 : (⟨S100000x256, .f32⟩ : BufTy).Contents (Elt Ideal)) (x2 : (⟨S256x64, .f32⟩ : BufTy).Contents (Elt Ideal)) :
    val_main_v0 (F := Ideal) x0 x2 = rowsByCols x0 x2 := by
  unfold val_main_v0
  exact dotGeneral_eq dot_S100000x256_S256x64_S100000x64_1_0_0_1_n_n rfl none _ x0 x2

/-- The hidden activations are the clamped combine of the first layer. -/
theorem hidden_eq (x0 : (⟨S100000x256, .f32⟩ : BufTy).Contents (Elt Ideal)) (x1 : (⟨S2x1600000, .i32⟩ : BufTy).Contents (Elt Ideal))
    (x2 : (⟨S256x64, .f32⟩ : BufTy).Contents (Elt Ideal)) (x3 : (⟨S64, .f32⟩ : BufTy).Contents (Elt Ideal))
    (hc1 : S100000.ShapeCasts S100000x1) (hc2 : S64.ShapeCasts S1x64) :
    val_main_v48 (F := Ideal) x0 x1 x2 x3
      = clampZero (selfLoop (val_main_v39 (F := Ideal) x0 x1 x2) (val_main_v0 (F := Ideal) x0 x2)
          (shapeCast S100000x1 (val_main_v40 (F := Ideal) x1) hc1) (shapeCast S1x64 x3 hc2)) := by
  unfold val_main_v48 val_main_v47 val_main_v44 val_main_v43 val_main_v42 val_main_v41 val_main_v46 val_main_v45
    val_main_call0_v0 val_main_call0_cst
  rw [combine_eq (n := 100000) (c := 64) (val_main_v39 (F := Ideal) x0 x1 x2) (val_main_v0 (F := Ideal) x0 x2)
    (val_main_v40 (F := Ideal) x1) x3 bcast_S100000_S100000x1_0 bcast_S100000x1_S100000x64_0_1 bcast_S64_S1x64_1
    bcast_S1x64_S100000x64_0_1 hc1 hc2]
  exact clamp_eq _ bcast_S_S100000x64

/-- The second projection is the whole product `h · W2`. -/
theorem proj2_eq (x0 : (⟨S100000x256, .f32⟩ : BufTy).Contents (Elt Ideal)) (x1 : (⟨S2x1600000, .i32⟩ : BufTy).Contents (Elt Ideal))
    (x2 : (⟨S256x64, .f32⟩ : BufTy).Contents (Elt Ideal)) (x3 : (⟨S64, .f32⟩ : BufTy).Contents (Elt Ideal))
    (x4 : (⟨S64x2, .f32⟩ : BufTy).Contents (Elt Ideal)) :
    val_main_v49 (F := Ideal) x0 x1 x2 x3 x4 = rowsByCols (val_main_v48 (F := Ideal) x0 x1 x2 x3) x4 := by
  unfold val_main_v49
  exact dotGeneral_eq dot_S100000x64_S64x2_S100000x2_1_0_0_1_n_n rfl none _ _ x4

/-- The result is the normalised combine of the second layer. -/
theorem out_eq (x0 : (⟨S100000x256, .f32⟩ : BufTy).Contents (Elt Ideal)) (x1 : (⟨S2x1600000, .i32⟩ : BufTy).Contents (Elt Ideal))
    (x2 : (⟨S256x64, .f32⟩ : BufTy).Contents (Elt Ideal)) (x3 : (⟨S64, .f32⟩ : BufTy).Contents (Elt Ideal))
    (x4 : (⟨S64x2, .f32⟩ : BufTy).Contents (Elt Ideal)) (x5 : (⟨S2, .f32⟩ : BufTy).Contents (Elt Ideal))
    (hc1 : S100000.ShapeCasts S100000x1) (hc2 : S2.ShapeCasts S1x2) :
    val_main_v107 (F := Ideal) x0 x1 x2 x3 x4 x5
      = softRows (selfLoop (val_main_v88 (F := Ideal) x0 x1 x2 x3 x4) (val_main_v49 (F := Ideal) x0 x1 x2 x3 x4)
          (shapeCast S100000x1 (val_main_v89 (F := Ideal) x1) hc1) (shapeCast S1x2 x5 hc2)) := by
  unfold val_main_v107 val_main_v106 val_main_v105 val_main_v104 val_main_v103 val_main_v102 val_main_v101 val_main_v100
    val_main_v99 val_main_v98 val_main_v97 val_main_cst_18 val_main_cst_19 val_main_cst_20 val_main_v96 val_main_v95
    val_main_v94 val_main_v93 val_main_v92 val_main_v91 val_main_v90
  rw [combine_eq (n := 100000) (c := 2) (val_main_v88 (F := Ideal) x0 x1 x2 x3 x4) (val_main_v49 (F := Ideal) x0 x1 x2 x3 x4)
    (val_main_v89 (F := Ideal) x1) x5 bcast_S100000_S100000x1_0 bcast_S100000x1_S100000x2_0_1 bcast_S2_S1x2_1
    bcast_S1x2_S100000x2_0_1 hc1 hc2]
  exact soft_eq _ reducesTo_S100000x2_S100000_d1 (by decide) h_S_ bcast_S_S100000 bcast_S100000_S100000x1_0
    bcast_S100000x1_S100000x2_0_1

end Cert.ReferenceIdeal.RefValue

end
-- ==== Proof.Glue.lean ====
/-
  The idealized kernel's result array is the reference's result function of the arguments.

  The buffer contents after each segment of the kernel's @main are a fold from the launch memory. Walking the fold
  from the launch to the return: the host operations before the first launch compute, from the edge list alone, the
  source and destination index vectors, the squared inverse root degrees and the per-edge weights — the same
  operations the reference applies, twice over, once per layer; the first launch leaves the whole product `x · W1`;
  the host gathers, weighs and scatter-adds its rows exactly as the reference does; the second launch leaves the
  clamped combine, which is the reference's hidden activation; the third the whole product `h · W2`; the host
  aggregates again; the fourth launch leaves the normalised combine, which is the reference's result.
  A buffer no segment writes is carried unchanged from one fold to the next.
-/
import proofs.«142394_j83640193122934_2_alg».proof.Proof.Gen.KernelIdeal.Frame
import proofs.«142394_j83640193122934_2_alg».proof.Proof.Gen.ReferenceIdeal.Read
import proofs.«142394_j83640193122934_2_alg».proof.Proof.Region0
import proofs.«142394_j83640193122934_2_alg».proof.Proof.Region1
import proofs.«142394_j83640193122934_2_alg».proof.Proof.Region2
import proofs.«142394_j83640193122934_2_alg».proof.Proof.Region3
import proofs.«142394_j83640193122934_2_alg».proof.Proof.RefTail

set_option maxRecDepth 16384

noncomputable section

namespace Cert.KernelIdeal.Whole

open Cert.KernelIdeal Cert.KernelIdeal.Gen
open Idealize.ShloMosaic Idealize.ShloMosaic.TcCoe Idealize.ShloMosaic.ValueIdx Idealize.ShloMosaic.StableHlo
open Cert.ReferenceIdeal.Read Cert.ReferenceIdeal.RefValue
open Cert.Gcn.Spec Cert.Lib.PlainDot

variable (m : (ℓ : Loc nD τ sig) → Buf (Elt Ideal) ℓ) (ρ : Dev nD → PrngReg) (c : Dev nD)

/-! ## Before the first launch: functions of the edge list, and the arguments as launched -/

theorem src_a : W1 m ρ c (Proc.devRef .tc main_v1) = val_main_v2 (F := Ideal) (m ((c : Thread nD τ).loc main_arg1)) := by
  show StableHlo.after hostOps0 (W0 m ρ c) (Proc.devRef .tc main_v1) = _
  dsimp only [hostOps0]; after_results_simp; rfl
theorem src_b : W1 m ρ c (Proc.devRef .tc main_v1) = val_main_v51 (F := Ideal) (m ((c : Thread nD τ).loc main_arg1)) := by
  show StableHlo.after hostOps0 (W0 m ρ c) (Proc.devRef .tc main_v1) = _
  dsimp only [hostOps0]; after_results_simp; rfl
theorem dst_a : W1 m ρ c (Proc.devRef .tc main_v3) = val_main_v4 (F := Ideal) (m ((c : Thread nD τ).loc main_arg1)) := by
  show StableHlo.after hostOps0 (W0 m ρ c) (Proc.devRef .tc main_v3) = _
  dsimp only [hostOps0]; after_results_simp; rfl
theorem dst_b : W1 m ρ c (Proc.devRef .tc main_v3) = val_main_v53 (F := Ideal) (m ((c : Thread nD τ).loc main_arg1)) := by
  show StableHlo.after hostOps0 (W0 m ρ c) (Proc.devRef .tc main_v3) = _
  dsimp only [hostOps0]; after_results_simp; rfl
theorem nrm_a : W1 m ρ c (Proc.devRef .tc main_v26) = val_main_v26 (F := Ideal) (m ((c : Thread nD τ).loc main_arg1)) := by
  show StableHlo.after hostOps0 (W0 m ρ c) (Proc.devRef .tc main_v26) = _
  dsimp only [hostOps0]; after_results_simp; rfl
theorem nrm_b : W1 m ρ c (Proc.devRef .tc main_v26) = val_main_v75 (F := Ideal) (m ((c : Thread nD τ).loc main_arg1)) := by
  show StableHlo.after hostOps0 (W0 m ρ c) (Proc.devRef .tc main_v26) = _
  dsimp only [hostOps0]; after_results_simp; rfl
theorem dsq_a : W1 m ρ c (Proc.devRef .tc main_v11) = val_main_v40 (F := Ideal) (m ((c : Thread nD τ).loc main_arg1)) := by
  show StableHlo.after hostOps0 (W0 m ρ c) (Proc.devRef .tc main_v11) = _
  dsimp only [hostOps0]; after_results_simp; rfl
theorem dsq_b : W1 m ρ c (Proc.devRef .tc main_v11) = val_main_v89 (F := Ideal) (m ((c : Thread nD τ).loc main_arg1)) := by
  show StableHlo.after hostOps0 (W0 m ρ c) (Proc.devRef .tc main_v11) = _
  dsimp only [hostOps0]; after_results_simp; rfl

theorem arg0_1 : W1 m ρ c (Proc.devRef .tc main_arg0) = (m ((c : Thread nD τ).loc main_arg0)) := by
  show StableHlo.after hostOps0 (W0 m ρ c) (Proc.devRef .tc main_arg0) = _
  dsimp only [hostOps0]; after_results_simp <;> rfl
theorem arg2_1 : W1 m ρ c (Proc.devRef .tc main_arg2) = (m ((c : Thread nD τ).loc main_arg2)) := by
  show StableHlo.after hostOps0 (W0 m ρ c) (Proc.devRef .tc main_arg2) = _
  dsimp only [hostOps0]; after_results_simp <;> rfl
theorem arg3_1 : W1 m ρ c (Proc.devRef .tc main_arg3) = (m ((c : Thread nD τ).loc main_arg3)) := by
  show StableHlo.after hostOps0 (W0 m ρ c) (Proc.devRef .tc main_arg3) = _
  dsimp only [hostOps0]; after_results_simp <;> rfl
theorem arg4_1 : W1 m ρ c (Proc.devRef .tc main_arg4) = (m ((c : Thread nD τ).loc main_arg4)) := by
  show StableHlo.after hostOps0 (W0 m ρ c) (Proc.devRef .tc main_arg4) = _
  dsimp only [hostOps0]; after_results_simp <;> rfl
theorem arg5_1 : W1 m ρ c (Proc.devRef .tc main_arg5) = (m ((c : Thread nD τ).loc main_arg5)) := by
  show StableHlo.after hostOps0 (W0 m ρ c) (Proc.devRef .tc main_arg5) = _
  dsimp only [hostOps0]; after_results_simp <;> rfl

/-! ## The first launch -/

theorem xw1_2 : W2 m ρ c (Proc.devRef .tc main_v27) = val_main_v0 (F := Ideal) (m ((c : Thread nD τ).loc main_arg0)) (m ((c : Thread nD τ).loc main_arg2)) := by
  refine (W2_arr m ρ c 2).trans ((proj1_array (V1 m ρ) c).trans ?_)
  rw [proj1_eq]
  show rowsByCols (W1 m ρ c (Proc.devRef .tc main_arg0)) (W1 m ρ c (Proc.devRef .tc main_arg2)) = _
  rw [arg0_1, arg2_1]

/-! ## Between the first and the second launch -/

theorem xw1_3 : W3 m ρ c (Proc.devRef .tc main_v27) = val_main_v0 (F := Ideal) (m ((c : Thread nD τ).loc main_arg0)) (m ((c : Thread nD τ).loc main_arg2)) := by
  show StableHlo.after hostOps1 (W2 m ρ c) (Proc.devRef .tc main_v27) = _
  dsimp only [hostOps1]; after_results_simp
  exact xw1_2 m ρ c

theorem agg1_3 : W3 m ρ c (Proc.devRef .tc main_v40) = val_main_v39 (F := Ideal) (m ((c : Thread nD τ).loc main_arg0)) (m ((c : Thread nD τ).loc main_arg1)) (m ((c : Thread nD τ).loc main_arg2)) := by
  show StableHlo.after hostOps1 (W2 m ρ c) (Proc.devRef .tc main_v40) = _
  dsimp only [hostOps1]; after_results_simp
  rw [W2_of_ne m ρ c main_v3 (by decide), W2_of_ne m ρ c main_v1 (by decide), W2_of_ne m ρ c main_v26 (by decide),
    xw1_2, src_a, dst_a, nrm_a]
  rfl

theorem brow1_3 : W3 m ρ c (Proc.devRef .tc main_v41) = shapeCast S1x64 (m ((c : Thread nD τ).loc main_arg3)) shapeCasts_S64_S1x64 := by
  show StableHlo.after hostOps1 (W2 m ρ c) (Proc.devRef .tc main_v41) = _
  dsimp only [hostOps1]; after_results_simp
  rw [W2_of_ne m ρ c main_arg3 (by decide), arg3_1]
  rfl

theorem dcol1_3 : W3 m ρ c (Proc.devRef .tc main_v42)
    = shapeCast S100000x1 (val_main_v40 (F := Ideal) (m ((c : Thread nD τ).loc main_arg1))) shapeCasts_S100000_S100000x1 := by
  show StableHlo.after hostOps1 (W2 m ρ c) (Proc.devRef .tc main_v42) = _
  dsimp only [hostOps1]; after_results_simp
  rw [W2_of_ne m ρ c main_v11 (by decide), dsq_a]
  rfl

/-! ## The second launch -/

theorem hid_4 : W4 m ρ c (Proc.devRef .tc main_v43) = val_main_v48 (F := Ideal) (m ((c : Thread nD τ).loc main_arg0)) (m ((c : Thread nD τ).loc main_arg1)) (m ((c : Thread nD τ).loc main_arg2)) (m ((c : Thread nD τ).loc main_arg3)) := by
  refine (W4_arr m ρ c 4).trans ((combine1_array (V3 m ρ) c).trans ?_)
  rw [hidden_eq _ _ _ _ shapeCasts_S100000_S100000x1 shapeCasts_S64_S1x64]
  show clampZero (selfLoop (W3 m ρ c (Proc.devRef .tc main_v40)) (W3 m ρ c (Proc.devRef .tc main_v27))
    (W3 m ρ c (Proc.devRef .tc main_v42)) (W3 m ρ c (Proc.devRef .tc main_v41))) = _
  rw [agg1_3, xw1_3, dcol1_3, brow1_3]

/-! ## Buffers no later segment writes, carried to the third and fourth launches -/

theorem arg4_4 : W4 m ρ c (Proc.devRef .tc main_arg4) = (m ((c : Thread nD τ).loc main_arg4)) := by
  refine (W4_of_ne m ρ c main_arg4 (by decide)).trans ?_
  show StableHlo.after hostOps1 (W2 m ρ c) (Proc.devRef .tc main_arg4) = _
  dsimp only [hostOps1]; after_results_simp
  exact (W2_of_ne m ρ c main_arg4 (by decide)).trans (arg4_1 m ρ c)

/-- A buffer the first stretch of host operations wrote and nothing later writes still holds at the third launch's
    exit what it held at the first launch's exit. -/
theorem carry_v1 : W5 m ρ c (Proc.devRef .tc main_v1) = W2 m ρ c (Proc.devRef .tc main_v1) := by
  refine (W5_of_ne m ρ c main_v1 (by decide)).trans ((W4_of_ne m ρ c main_v1 (by decide)).trans ?_)
  show StableHlo.after hostOps1 (W2 m ρ c) (Proc.devRef .tc main_v1) = _
  dsimp only [hostOps1]; after_results_simp <;> rfl
theorem carry_v3 : W5 m ρ c (Proc.devRef .tc main_v3) = W2 m ρ c (Proc.devRef .tc main_v3) := by
  refine (W5_of_ne m ρ c main_v3 (by decide)).trans ((W4_of_ne m ρ c main_v3 (by decide)).trans ?_)
  show StableHlo.after hostOps1 (W2 m ρ c) (Proc.devRef .tc main_v3) = _
  dsimp only [hostOps1]; after_results_simp <;> rfl
theorem carry_v26 : W5 m ρ c (Proc.devRef .tc main_v26) = W2 m ρ c (Proc.devRef .tc main_v26) := by
  refine (W5_of_ne m ρ c main_v26 (by decide)).trans ((W4_of_ne m ρ c main_v26 (by decide)).trans ?_)
  show StableHlo.after hostOps1 (W2 m ρ c) (Proc.devRef .tc main_v26) = _
  dsimp only [hostOps1]; after_results_simp <;> rfl
theorem carry_v11 : W5 m ρ c (Proc.devRef .tc main_v11) = W2 m ρ c (Proc.devRef .tc main_v11) := by
  refine (W5_of_ne m ρ c main_v11 (by decide)).trans ((W4_of_ne m ρ c main_v11 (by decide)).trans ?_)
  show StableHlo.after hostOps1 (W2 m ρ c) (Proc.devRef .tc main_v11) = _
  dsimp only [hostOps1]; after_results_simp <;> rfl
theorem carry_arg5 : W5 m ρ c (Proc.devRef .tc main_arg5) = (m ((c : Thread nD τ).loc main_arg5)) := by
  refine (W5_of_ne m ρ c main_arg5 (by decide)).trans ((W4_of_ne m ρ c main_arg5 (by decide)).trans ?_)
  show StableHlo.after hostOps1 (W2 m ρ c) (Proc.devRef .tc main_arg5) = _
  dsimp only [hostOps1]; after_results_simp
  exact (W2_of_ne m ρ c main_arg5 (by decide)).trans (arg5_1 m ρ c)

/-! ## The third launch -/

theorem xw2_5 : W5 m ρ c (Proc.devRef .tc main_v44) = val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W5_arr m ρ c 2).trans ((proj2_array (V4 m ρ) c).trans ?_)
  rw [proj2_eq]
  show rowsByCols (W4 m ρ c (Proc.devRef .tc main_v43)) (W4 m ρ c (Proc.devRef .tc main_arg4)) = _
  rw [hid_4, arg4_4]

/-! ## Between the third and the fourth launch -/

theorem xw2_6 : W6 m ρ c (Proc.devRef .tc main_v44) = val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  show StableHlo.after hostOps3 (W5 m ρ c) (Proc.devRef .tc main_v44) = _
  dsimp only [hostOps3]; after_results_simp
  exact xw2_5 m ρ c

theorem agg2_6 : W6 m ρ c (Proc.devRef .tc main_v57) = val_main_v88 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  show StableHlo.after hostOps3 (W5 m ρ c) (Proc.devRef .tc main_v57) = _
  dsimp only [hostOps3]; after_results_simp
  rw [carry_v3, carry_v1, carry_v26, W2_of_ne m ρ c main_v3 (by decide), W2_of_ne m ρ c main_v1 (by decide),
    W2_of_ne m ρ c main_v26 (by decide), xw2_5, src_b, dst_b, nrm_b]
  rfl

theorem brow2_6 : W6 m ρ c (Proc.devRef .tc main_v58) = shapeCast S1x2 (m ((c : Thread nD τ).loc main_arg5)) shapeCasts_S2_S1x2 := by
  show StableHlo.after hostOps3 (W5 m ρ c) (Proc.devRef .tc main_v58) = _
  dsimp only [hostOps3]; after_results_simp
  rw [carry_arg5]
  rfl

theorem dcol2_6 : W6 m ρ c (Proc.devRef .tc main_v59)
    = shapeCast S100000x1 (val_main_v89 (F := Ideal) (m ((c : Thread nD τ).loc main_arg1))) shapeCasts_S100000_S100000x1 := by
  show StableHlo.after hostOps3 (W5 m ρ c) (Proc.devRef .tc main_v59) = _
  dsimp only [hostOps3]; after_results_simp
  rw [carry_v11, W2_of_ne m ρ c main_v11 (by decide), dsq_b]
  rfl

/-! ## The fourth launch: the result -/

/-- The kernel's result array is the reference's result function of the launch contents of the six arguments. -/
theorem result_eq : W7 m ρ c (Proc.devRef .tc main_v60) = val_main_v107 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W7_arr m ρ c 4).trans ((combine2_array (V6 m ρ) c).trans ?_)
  rw [out_eq _ _ _ _ _ _ shapeCasts_S100000_S100000x1 shapeCasts_S2_S1x2]
  show softRows (selfLoop (W6 m ρ c (Proc.devRef .tc main_v57)) (W6 m ρ c (Proc.devRef .tc main_v44))
    (W6 m ρ c (Proc.devRef .tc main_v59)) (W6 m ρ c (Proc.devRef .tc main_v58))) = _
  rw [agg2_6, xw2_6, dcol2_6, brow2_6]

end Cert.KernelIdeal.Whole

end
-- ==== Proof.lean ====
/-
  A two-layer graph convolution with a row-wise normalised output, computed by four grid launches among host
  operations, against the same network written with whole-array operations.

  Each layer is `act (A (x W) + (x W) · d² + b)`: a projection, an aggregation over the edges (a gather of rows, a
  per-edge weight, a scatter-add), a self-loop term and a bias, then a clamp at zero (first layer) or the row-wise
  normalised exponential (second layer). The kernel computes the two projections and the two epilogues in grid
  launches, one block of 5000 rows per grid point, and leaves the edge aggregation and the degree normalisation to the
  same host operations the reference uses. On the extended reals a change of float format is the identity and a
  product accumulated from zero is the plain sum, so each launch leaves exactly the whole-array value (the four launch
  modules); chaining these through the buffer contents at the segment boundaries gives the reference's result function
  of the arguments (the glue module). No law beyond these is used, and the precondition is not needed for the values.
  The three frames are the generated ones (the reference's is its generated run with the result dropped); the ideal
  pass rewrote nothing, so the preservation claim is trivial.
-/
import proofs.«142394_j83640193122934_2_alg».proof.Defs
import proofs.«142394_j83640193122934_2_alg».proof.Proof.Gen.Kernel
import proofs.«142394_j83640193122934_2_alg».proof.Proof.Gen.Kernel.Skeleton
import proofs.«142394_j83640193122934_2_alg».proof.Proof.Gen.Kernel.Launch
import proofs.«142394_j83640193122934_2_alg».proof.Proof.Gen.Kernel.Points
import proofs.«142394_j83640193122934_2_alg».proof.Proof.Gen.Kernel.Frame
import proofs.«142394_j83640193122934_2_alg».proof.Proof.Gen.KernelIdeal
import proofs.«142394_j83640193122934_2_alg».proof.Proof.Gen.KernelIdeal.Skeleton
import proofs.«142394_j83640193122934_2_alg».proof.Proof.Gen.KernelIdeal.Launch
import proofs.«142394_j83640193122934_2_alg».proof.Proof.Gen.KernelIdeal.Points
import proofs.«142394_j83640193122934_2_alg».proof.Proof.Gen.KernelIdeal.Frame
import proofs.«142394_j83640193122934_2_alg».proof.Proof.Gen.ReferenceIdeal
import proofs.«142394_j83640193122934_2_alg».proof.Proof.Gen.ReferenceIdeal.Run
import proofs.«142394_j83640193122934_2_alg».proof.Proof.Gen.ReferenceIdeal.Read
import proofs.«142394_j83640193122934_2_alg».proof.Proof.Gen.Pre_finite_inputs
import proofs.«142394_j83640193122934_2_alg».proof.Proof.KernelRun
import proofs.«142394_j83640193122934_2_alg».proof.Proof.Glue
import Idealize.ShloMosaic.Adequacy
import Idealize.ShloMosaic.Init

noncomputable section

namespace Cert.Proof

open Idealize.ShloMosaic Idealize.SL.Sem

theorem frame_kernel : @Cert.frame_Kernel Cert.Kernel.Gen.facts Cert.Pre_finite_inputs.Gen.facts :=
  fun m ρ _ => Cert.Kernel.Gen.frame m ρ

theorem frame_kernelIdeal : @Cert.frame_KernelIdeal Cert.KernelIdeal.Gen.facts Cert.Pre_finite_inputs.Gen.facts :=
  fun m ρ _ => Cert.KernelIdeal.Gen.frame m ρ

/-- The reference runs and keeps its arguments: its generated run with the result dropped. -/
theorem frame_referenceIdeal : @Cert.frame_ReferenceIdeal Cert.ReferenceIdeal.Gen.facts Cert.Pre_finite_inputs.Gen.facts :=
  fun m ρ _ => (θ_run Cert.ReferenceIdeal.defs _ _).mono (fun _ h c => (h c).2)
    (Cert.ReferenceIdeal.Value.run (F := Ideal) m ρ)

/-- Both programs end with the reference's result function of the common arguments: the kernel by the chain of its
    four launches, the reference by its generated run. -/
theorem algebraic : @Cert.algebraic_KernelIdeal_ReferenceIdeal Cert.KernelIdeal.Gen.facts Cert.ReferenceIdeal.Gen.facts
    Cert.Pre_finite_inputs.Gen.facts := by
  intro m ρ m' ρ' _ hagree
  refine ⟨fun c => Cert.ReferenceIdeal.Read.val_main_v107 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Whole.result_eq m ρ c), (h c).2⟩)
      (Cert.KernelIdeal.Whole.run_named m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v107_eq, (hagree c).1, (hagree c).2.1, (hagree c).2.2.1, (hagree c).2.2.2.1,
      (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
